-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn {F : FTy → Type} [FloatOps F] (main_arg0 : FVec F S4096x768 .f32) (main_arg1 : FVec F S4096x768 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  main_v8
-- ==== Kernel.lean ====
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S8192x768 : Shape := ⟨2, ![8192, 768]⟩
abbrev S8192x1 : Shape := ⟨2, ![8192, 1]⟩
abbrev S1024x768 : Shape := ⟨2, ![1024, 768]⟩
abbrev S1024x1 : Shape := ⟨2, ![1024, 1]⟩
abbrev S1024x1024 : Shape := ⟨2, ![1024, 1024]⟩
abbrev S1024 : Shape := ⟨1, ![1024]⟩
abbrev S8192 : Shape := ⟨1, ![8192]⟩

abbrev nBuf : Space → Nat
  | .hbm => 39
  | .vmem => 7
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x768, .f32⟩
  | .hbm, ⟨21, _⟩ => ⟨S4096x768, .f32⟩
  | .hbm, ⟨22, _⟩ => ⟨S8192x768, .f32⟩
  | .hbm, ⟨23, _⟩ => ⟨S8192x768, .bf16⟩
  | .hbm, ⟨24, _⟩ => ⟨S8192x1, .f32⟩
  | .hbm, ⟨25, _⟩ => ⟨S8192, .f32⟩
  | .hbm, ⟨26, _⟩ => ⟨S4096x768, .f32⟩
  | .hbm, ⟨27, _⟩ => ⟨S_, .f32⟩
  | .hbm, ⟨28, _⟩ => ⟨S4096, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  concatenates_S4096x768_S4096x768_S8192x768_d0 : Shape.Concatenates [S4096x768, S4096x768] S8192x768 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .bf16 = 32 ∨ (Rect.block (s := S8192x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_v11) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S8192x768 : Shape := ⟨2, ![8192, 768]⟩
abbrev S768x8192 : Shape := ⟨2, ![768, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 97
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x768, .f32⟩
  | .hbm, ⟨21, _⟩ => ⟨S4096x768, .f32⟩
  | .hbm, ⟨22, _⟩ => ⟨S8192x768, .f32⟩
  | .hbm, ⟨23, _⟩ => ⟨S768x8192, .f32⟩
  | .hbm, ⟨24, _⟩ => ⟨S8192x8192, .f32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x1, .i32⟩
  | .hbm, ⟨45, _⟩ => ⟨S4096x2, .i32⟩
  | .hbm, ⟨46, _⟩ => ⟨S4096, .f32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x1, .i32⟩
  | .hbm, ⟨66, _⟩ => ⟨S4096x2, .i32⟩
  | .hbm, ⟨67, _⟩ => ⟨S4096, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192x8192, .i32⟩
  | .hbm, ⟨74, _⟩ => ⟨S8192x8192, .i32⟩
  | .hbm, ⟨75, _⟩ => ⟨S_, .i32⟩
  | .hbm, ⟨76, _⟩ => ⟨S8192x8192, .i32⟩
  | .hbm, ⟨77, _⟩ => ⟨S8192x8192, .i32⟩
  | .hbm, ⟨78, _⟩ => ⟨S8192x8192, .i1⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  concatenates_S4096x768_S4096x768_S8192x768_d0 : Shape.Concatenates [S4096x768, S4096x768] S8192x768 0
  transposes_S8192x768_S768x8192_1_0 : S8192x768.Transposes [1, 0] S768x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x768_S768x8192_S8192x8192_1_0_0_1_n_n_wf : DotDims.WF S8192x768 S768x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.K.Setup.lean ====
/-
  The program around its one kernel region, and what the region's body is run against.

  @main normalises the rows of both arguments (four stretches of host operations, ending in the 8192×768 matrix of unit
  rows `main_v11`), launches the kernel on an 8×8 grid — point (i, j) is handed row tile i of that matrix through window
  0 and row tile j of THE SAME matrix through window 1, and accumulates into a 1024×1 scratch column —, and finishes
  with fourteen host operations. Here: the contents of the buffers when the region is entered (`V`), @main as
  "host lines, the region, host lines", each window's block at a grid point (`iblk`) and that both input windows'
  staging buffers hold their blocks whenever the body runs, the body's two conditions in closed form over the grid
  (column block j = 0: the accumulator is reset; j = 7: the accumulated column is stored to the output window), and
  where the output window is idle.
-/
import proofs.«177341_j9079560864194_1_alg».proof.Proof.Gen.Kernel.Launch
import proofs.«177341_j9079560864194_1_alg».proof.Proof.Gen.Kernel.Skeleton
import proofs.«177341_j9079560864194_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch. -/
abbrev linesBefore : List (List (HloOp τ sig (Elt F))) := [hostOps0, hostOps0_1, hostOps0_2, hostOps0_3]

/-- Core `c`'s buffer contents when the region is entered: after the host lines before it. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the lines after it, at the contents after the lines before it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    ⟨hostOps0_fresh, hostOps0_1_fresh, hostOps0_2_fresh, hostOps0_3_fresh⟩ main_chain

/-- The lines after the region touch unscoped TensorCore buffers only. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile window's staging buffer holds row tile i at every point (i, j), though it is fetched only at j = 0:
    between fetches the block index does not move and the body leaves the buffer as it found it. -/
theorem beforeRow_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile window's staging buffer holds row tile j at every point (i, j). -/
theorem beforeCol_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first column block of the row tile" (j = 0), as the body computes it. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last column block of the row tile" (j = 7), as the body computes it. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem liveRow : ∀ t : Fin cfg0.N, cfg0.idle 0 (grid0.coords t) = false := by decide +kernel
theorem liveCol : ∀ t : Fin cfg0.N, cfg0.idle 1 (grid0.coords t) = false := by decide +kernel
/-- Before the last column block the body stores nothing into the output window, -/
theorem idleOut : ∀ t : Fin cfg0.N, ¬isLast (grid0.coords t) → cfg0.idle 2 (grid0.coords t) = true := by decide +kernel
/-- and the pipeline does not write its block back there. -/
theorem noFlushOut : ∀ t : Fin cfg0.N, ¬isLast (grid0.coords t) → (cfg0.win 2).flush t = false := by decide +kernel
/-- At the last column block the output window is stored into. -/
theorem liveOut : ∀ t : Fin cfg0.N, isLast (grid0.coords t) → cfg0.idle 2 (grid0.coords t) = false := by decide +kernel

/-! ## The staging memrefs and the accumulator -/

/-- One staging buffer of the output window, through which its contents are stated. -/
abbrev VOut : View sig .tc .vmem S1024x1 .f32 := (Memref.whole cc0_stg2_0 : Memref sig .tc .vmem S1024x1 .f32).view
abbrev msRow (t : Fin cfg0.N) : Memref sig .tc .vmem S1024x768 .bf16 := win0_0.stage (cfg0.slots t 0)
abbrev hsRow (t : Fin cfg0.N) : (msRow t).IsWhole := hstage0_0 ((cfg0.slots t 0).cast nbuf0_0)
abbrev msCol (t : Fin cfg0.N) : Memref sig .tc .vmem S1024x768 .bf16 := win0_1.stage (cfg0.slots t 1)
abbrev hsCol (t : Fin cfg0.N) : (msCol t).IsWhole := hstage0_1 ((cfg0.slots t 1).cast nbuf0_1)
abbrev msOut (t : Fin cfg0.N) : Memref sig .tc .vmem S1024x1 .f32 := win0_2.stage (cfg0.slots t 2)
abbrev hsOut (t : Fin cfg0.N) : (msOut t).IsWhole := hstage0_2 ((cfg0.slots t 2).cast nbuf0_2)
/-- The accumulator: a whole scoped buffer of the kernel's own. -/
abbrev accM : Memref sig .tc .vmem S1024x1 .f32 := Memref.whole cc0_scratch0
abbrev VAcc : View sig .tc .vmem S1024x1 .f32 := accM.view

/-- The class's region invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.K.RunFirst.lean ====
/-
  The kernel body at a point of the FIRST column block (j = 0): the accumulator, at whatever it held, is reset to zero and then added the block's masked row sums; the output window is not touched.
-/
import proofs.«177341_j9079560864194_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The body at a point with j = 0 and j ≠ 7, on whole memrefs: the two tiles at their contents `x0`, `x1`, the output
    window's buffer at `xo` (handed back untouched), the accumulator at anything. It runs to the continuation with the
    accumulator holding the pieces `LA` its two stores wrote (the pieces are what the symbolic run finds). -/
noncomputable def runFirst (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i)
    (x0 x1 : Vec F S1024x768 .bf16) :
    Σ' (LO : List (View.Piece (Elt F) S1024x1 .f32)), { LA : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__denom_kernel i arg2 harg2 arg3 harg3 arg4 harg4 arg5 harg5) K } := by
  refine ⟨[], ?_, fun xo E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.RunMid.lean ====
/-
  The kernel body at a point of a MIDDLE column block (0 < j < 7): the accumulator, at what the point before left, is added the block's masked row sums; the output window is not touched.
-/
import proofs.«177341_j9079560864194_1_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point with j ≠ 0 and j ≠ 7: as `runFirst`, the accumulator handed in at the contents `xs` the point
    before left. -/
noncomputable def runMid (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i)
    (x0 x1 : Vec F S1024x768 .bf16) (xs : Vec F S1024x1 .f32) :
    Σ' (LO : List (View.Piece (Elt F) S1024x1 .f32)), { LA : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__denom_kernel i arg2 harg2 arg3 harg3 arg4 harg4 arg5 harg5) K } := by
  refine ⟨[], ?_, fun xo E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.RunLast.lean ====
/-
  The kernel body at a point of the LAST column block (j = 7): the accumulator, at what the point before left, is added the block's masked row sums, and the finished column is stored to the output window.
-/
import proofs.«177341_j9079560864194_1_alg».proof.Proof.K.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point with j ≠ 0 and j = 7: the accumulator handed in at `xs`, the output window's buffer at anything;
    both end with the pieces the stores wrote (`LA`, `LO`). -/
noncomputable def runLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i)
    (x0 x1 : Vec F S1024x768 .bf16) (xs : Vec F S1024x1 .f32) :
    Σ' (LO : List (View.Piece (Elt F) S1024x1 .f32)), { LA : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.K.Frame.lean ====
/-
  The kernel region, point by point, and the run of @main around it.

  For a row tile i the kernel visits the column blocks j = 0 … 7 in order. Its accumulator column (a scratch buffer the
  kernel carries from point to point) is reset at j = 0 and then, at every j, added the row sums over column block j of
  `exp(2·⟨row, col⟩)` with the diagonal entries (global row = global column) replaced by zero; at j = 7 the finished column
  is stored to the output window, which the pipeline writes back to rows 1024·i … of the result. `stateAt` names what
  the output window's buffer and the accumulator hold after each point, by recursion on the point: the case's run at the
  point's two tiles, over what the point before left in the accumulator. The region invariant holds the accumulator at
  exactly that. Both input windows read ONE array: each holds it at half the full share, split at the region's entry and
  rejoined at its exit.
-/
import proofs.«177341_j9079560864194_1_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A value for the output window's buffer where nothing consults it (the window idle and not written back). -/
def outIdle : Vec F S1024x1 .f32 := VOut.read (Elt F) VOut.junk

/-- j = 0: the two stores into the accumulator cover it. -/
theorem coverFirst (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 x1 : Vec F S1024x768 .bf16) (y : S1024x1.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S1024x1.size (by sl_kernel_rfl) y
/-- What the accumulator holds after a point with j = 0. -/
def accFirst (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 x1 : Vec F S1024x768 .bf16) : Vec F S1024x1 .f32 :=
  VAcc.read (Elt F) (VAcc.writes (Elt F) VAcc.junk (runFirst c i arg2 harg2 arg3 harg3 arg4 harg4 arg5 harg5 hc0 hc1 x0 x1).2.1)

theorem coverMid (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 x1 : Vec F S1024x768 .bf16) (xs : Vec F S1024x1 .f32) (y : S1024x1.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S1024x1.size (by sl_kernel_rfl) y
/-- What the accumulator holds after a point with 0 < j < 7, over what the point before left (`xs`). -/
def accMid (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 x1 : Vec F S1024x768 .bf16) (xs : Vec F S1024x1 .f32) : Vec F S1024x1 .f32 :=
  VAcc.read (Elt F) (VAcc.writes (Elt F) VAcc.junk (runMid c i arg2 harg2 arg3 harg3 arg4 harg4 arg5 harg5 hc0 hc1 x0 x1 xs).2.1)

theorem coverLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) (y : S1024x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x1.size (by sl_kernel_rfl) y
/-- What the accumulator holds after a point with j = 7. -/
def accLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) : Vec F S1024x1 .f32 :=
  VAcc.read (Elt F) (VAcc.writes (Elt F) VAcc.junk (runLast c i arg2 harg2 arg3 harg3 arg4 harg4 arg5 harg5 hc0 hc1 x0 x1 xs).2.1)
theorem coverOutLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) (y : S1024x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x1.size (by sl_kernel_rfl) y
/-- What the output window's buffer holds after a point with j = 7. -/
def outLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) : Vec F S1024x1 .f32 :=
  VOut.read (Elt F) (VOut.writes (Elt F) VOut.junk (runLast c i arg2 harg2 arg3 harg3 arg4 harg4 arg5 harg5 hc0 hc1 x0 x1 xs).1)

/-! ## The accumulation, point by point -/

/-- What the output window's buffer and the accumulator hold after the body at position `n`. -/
def stateAt (c : Dev nD) : (n : ℕ) → n < cfg0.N → Vec F S1024x1 .f32 × Vec F S1024x1 .f32
  | 0, hn => (outIdle, accFirst c (grid0.coords ⟨0, hn⟩) (msRow ⟨0, hn⟩) (hsRow ⟨0, hn⟩) (msCol ⟨0, hn⟩) (hsCol ⟨0, hn⟩) (msOut ⟨0, hn⟩) (hsOut ⟨0, hn⟩) accM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (outIdle, accFirst c (grid0.coords ⟨n + 1, hn⟩) (msRow ⟨n + 1, hn⟩) (hsRow ⟨n + 1, hn⟩) (msCol ⟨n + 1, hn⟩) (hsCol ⟨n + 1, hn⟩) (msOut ⟨n + 1, hn⟩) (hsOut ⟨n + 1, hn⟩) accM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩))
    else
      if h1 : (n + 1) % 8 = 7 then
        (outLast c (grid0.coords ⟨n + 1, hn⟩) (msRow ⟨n + 1, hn⟩) (hsRow ⟨n + 1, hn⟩) (msCol ⟨n + 1, hn⟩) (hsCol ⟨n + 1, hn⟩) (msOut ⟨n + 1, hn⟩) (hsOut ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (stateAt c n (Nat.lt_of_succ_lt hn)).2,
          accLast c (grid0.coords ⟨n + 1, hn⟩) (msRow ⟨n + 1, hn⟩) (hsRow ⟨n + 1, hn⟩) (msCol ⟨n + 1, hn⟩) (hsCol ⟨n + 1, hn⟩) (msOut ⟨n + 1, hn⟩) (hsOut ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (stateAt c n (Nat.lt_of_succ_lt hn)).2)
      else
        (outIdle, accMid c (grid0.coords ⟨n + 1, hn⟩) (msRow ⟨n + 1, hn⟩) (hsRow ⟨n + 1, hn⟩) (msCol ⟨n + 1, hn⟩) (hsCol ⟨n + 1, hn⟩) (msOut ⟨n + 1, hn⟩) (hsOut ⟨n + 1, hn⟩) accM (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (stateAt c n (Nat.lt_of_succ_lt hn)).2)

theorem stateAt_first (c : Dev nD) (t : Fin cfg0.N) (h0 : t.val % 8 = 0) (h1 : ¬t.val % 8 = 7) :
    stateAt m c t.val t.isLt = (outIdle, accFirst c (grid0.coords t) (msRow t) (hsRow t) (msCol t) (hsCol t) (msOut t) (hsOut t) accM (Memref.isWhole_whole _) ((isFirst_iff t).mpr h0) (fun h => h1 ((isLast_iff t).mp h)) (iblk m c 0 t) (iblk m c 1 t)) := by
  obtain ⟨n, hn⟩ := t
  cases n with
  | zero => exact rfl
  | succ n => exact (dif_pos h0).trans ((dif_neg h1).trans rfl)

theorem stateAt_mid (c : Dev nD) (t : Fin cfg0.N) (h0 : ¬t.val % 8 = 0) (h1 : ¬t.val % 8 = 7) :
    stateAt m c t.val t.isLt = (outIdle, accMid c (grid0.coords t) (msRow t) (hsRow t) (msCol t) (hsCol t) (msOut t) (hsOut t) accM (Memref.isWhole_whole _) (fun h => h0 ((isFirst_iff t).mp h)) (fun h => h1 ((isLast_iff t).mp h)) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 8 = 0) (h1 : t.val % 8 = 7) :
    stateAt m c t.val t.isLt = (outLast c (grid0.coords t) (msRow t) (hsRow t) (msCol t) (hsCol t) (msOut t) (hsOut t) accM (Memref.isWhole_whole _) (fun h => h0 ((isFirst_iff t).mp h)) ((isLast_iff t).mpr h1) (iblk m c 0 t) (iblk m c 1 t) (stateAt m c (t.val - 1) (Nat.lt_of_le_of_lt (Nat.sub_le _ _) t.isLt)).2,
      accLast c (grid0.coords t) (msRow t) (hsRow t) (msCol t) (hsCol t) (msOut t) (hsOut t) accM (Memref.isWhole_whole _) (fun h => h0 ((isFirst_iff t).mp h)) ((isLast_iff t).mpr h1) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator at what the point before left -/

def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stateAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- The arrays as the region finds them; after the body each input window's buffer at its block, the output window's at
    `stateAt`; the invariant `PhiS`; the shared array at half the full share per input window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem afterRow (c : Dev nD) (t : Fin cfg0.N) : (dats m 0 c).after 0 t = iblk m c 0 t := by dsimp only [dats]
theorem afterCol (c : Dev nD) (t : Fin cfg0.N) : (dats m 0 c).after 1 t = iblk m c 1 t := by dsimp only [dats]
theorem afterOut (c : Dev nD) (t : Fin cfg0.N) : (dats m 0 c).after 2 t = (stateAt m c t.val t.isLt).1 := by dsimp only [dats]
theorem beforeRow (c : Dev nD) (t : Fin cfg0.N) (d) : (dats m 0 c).before 0 t d = iblk m c 0 t :=
  beforeRow_of m (dats m 0 c) (A_eq m c 0) (afterRow m c) t d
theorem beforeCol (c : Dev nD) (t : Fin cfg0.N) (d) : (dats m 0 c).before 1 t d = iblk m c 1 t :=
  beforeCol_of m (dats m 0 c) (A_eq m c 1) (afterCol m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msRow t) fullShare ((dats m 0 c).before 0 t d))
    ∗ (∃ d, owns (c : Thread nD τ) (msCol t) fullShare ((dats m 0 c).before 1 t d))
    ∗ (∃ d, owns (c : Thread nD τ) (msOut t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input windows' buffers hold their tiles; the closed forms say which case the point is in;
    the invariant hands the body the accumulator at what the point before left (at anything before the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeRow, beforeCol]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (msRow t) fullShare ((dats m 0 c).after 0 t) from by
    unfold Dat.leavesExact; rw [liveRow t], afterRow]
  rw [show (dats m 0 c).leavesExact 1 t = owns (c : Thread nD τ) (msCol t) fullShare ((dats m 0 c).after 1 t) from by
    unfold Dat.leavesExact; rw [liveCol t], afterCol]
  by_cases h0 : t.val % 8 = 0
  · have h1 : ¬t.val % 8 = 7 := by omega
    rw [Dat.leavesExact_idle (dats m 0 c) 2 t (idleOut t (fun h => h1 ((isLast_iff t).mp h))) (noFlushOut t (fun h => h1 ((isLast_iff t).mp h)))]
    rw [stateAt_first m c t h0 h1]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) (msRow t) (hsRow t) (msCol t) (hsCol t) (msOut t) (hsOut t) accM (Memref.isWhole_whole _) ((isFirst_iff t).mpr h0) (fun h => h1 ((isLast_iff t).mp h)) (iblk m c 0 t) (iblk m c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) (msRow t) (hsRow t) (msCol t) (hsCol t) (msOut t) (hsOut t) accM (Memref.isWhole_whole _) ((isFirst_iff t).mpr h0) (fun h => h1 ((isLast_iff t).mp h)) (iblk m c 0 t) (iblk m c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dats m 0 c).leavesExact 2 t = owns (c : Thread nD τ) (msOut t) fullShare ((dats m 0 c).after 2 t) from by
        unfold Dat.leavesExact; rw [liveOut t ((isLast_iff t).mpr h1)], afterOut]
      rw [stateAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) (msRow t) (hsRow t) (msCol t) (hsCol t) (msOut t) (hsOut t) accM (Memref.isWhole_whole _) (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverOutLast c _ _ _ _ _ _ _ _ _ _ _ _ _ _)
    · rw [Dat.leavesExact_idle (dats m 0 c) 2 t (idleOut t (fun h => h1 ((isLast_iff t).mp h))) (noFlushOut t (fun h => h1 ((isLast_iff t).mp h)))]
      rw [stateAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) (msRow t) (hsRow t) (msCol t) (hsCol t) (msOut t) (hsOut t) accM (Memref.isWhole_whole _) (fun h => h0 ((isFirst_iff t).mp h)) (fun h => h1 ((isLast_iff t).mp h)) (iblk m c 0 t) (iblk m c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

end Cert.Kernel.Hand

end
-- ==== Proof.LibSharedFrame.lean ====
/-
  The frame run around a kernel region whose windows may SHARE an array.

  A pipelined kernel that is handed one array through several input windows (a Gram matrix `X · Xᵀ` tiled over
  rows AND columns of the same `X`) holds that array once per window, at fractional shares that add up to the whole.
  The launch hands the region the DISTINCT buffers behind the windows' arrays, each whole (`arrBufs`); how they become
  the windows' `arrays` at the region's entry (`hsplit`: a buffer read through several windows is split among them),
  and how the windows' arrays at the region's exit are the distinct buffers again, whole (`hjoin`, `hback`: the shares
  of one buffer rejoined, every window on it holding the same contents), is the certificate's to say; everything else
  — @main as host lines, the region, host lines; the lines after the region running within the arrays' buffers and the
  buffers that bypass the region; the final state read back — is as for distinct arrays.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

namespace Pipeline

open Idealize.ShloMosaic.Rounds

section Tail

variable {Λ₀ : SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

omit [Fintype P] [DecidableEq P] in
/-- The buffers a line after the region may touch, held at `Wv`: the distinct buffers behind the windows' arrays and
    the buffers that bypass the region, each whole at `Wv` — whether or not two windows share an array. -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

omit [Fintype P] [DecidableEq P] in
set_option backward.isDefEq.respectTransparency.types false in
/-- The lines after the region, run within the distinct buffers behind the arrays and the bypassing buffers, all held
    whole at `Wv`: they end at the lines' `StableHlo.after` from `Wv`. -/
theorem tail_seqs_shared [Preorder Lvl] {gr : Nat} {W : Nat} (pre : Prefetch sig) (win : Fin W → WinSpec sig gr)
    (c : Dev nD) (Wv : Valuation τ sig Val) (opss : List (List (HloOp τ sig Val)))
    (hsub : ∀ ops ∈ opss, ∀ op ∈ ops, op.bufs ⊆ tailRefs sig pre win)
    (hfresh : ∀ ops ∈ opss, ∀ op ∈ ops, op.fresh = ∅)
    (Q' : PUnit → sProp 𝕄) :
    iprop((iprop(arrBufs win c (fun b => StableHlo.after opss.flatten Wv (Proc.devRef .tc b))
              ∗ unscopedRestP pre win c (fun b => StableHlo.after opss.flatten Wv (Proc.devRef .tc b))) -∗ Q' ⟨⟩)
        ∗ boundary (c.tc : Thread nD τ) ∗ arrBufs win c (fun b => Wv (Proc.devRef .tc b))
        ∗ unscopedRestP pre win c (fun b => Wv (Proc.devRef .tc b)))
      ⊢ wp frame (wpE 𝔻 𝕍 (c.tc : Thread nD τ) none) Set.univ (chain (opss.map StableHlo.seq)) Q' := by
  classical
  rw [← List.append_nil (opss.map StableHlo.seq), ← held_tailRefs_shared pre win c Wv,
    ← held_tailRefs_shared pre win c (StableHlo.after opss.flatten Wv)]
  iintro ⟨Hk, Hb⟩
  iapply (wp_seqs_then pcs defs₀ 𝒱₀ c (tailRefs sig pre win) [] opss hsub hfresh Wv) $$ Hb
  iintro Hb
  rw [chain_nil, wp_pure]
  imodintro
  iapply Hk
  icases Hb with ⟨-, H⟩
  iexact H

end Tail

section Frame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The post of the frame run below: every window's array at what the library computes from the proof data, every
    buffer that bypasses the region at the lines' `StableHlo.after` from the region's exit contents `Wf`. -/
def SharedPost (Wf : Dev nD → Valuation τ sig Val) (opss : List (List (HloOp τ sig Val))) (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (Wf c) (Proc.devRef .tc b)

/-- THE FRAME RUN with a tracking invariant, host lines before and after the region, for windows that may share arrays
    (`WinFacts₀`): the library's run for distinct arrays with the arrays' entry split (`hsplit`) and exit join
    (`hjoin`, and `hback` after the lines, which write no array) supplied. `Wf c` is the core's contents at the region's
    exit: the arrays' buffers at their final contents, every bypassing buffer as the region found it (`hWf`). -/
theorem θ_run_frame_around_track_shared
    (hcell : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ tailRefs sig Prefetch.none (cfg).spec)
    (hfresh : ∀ ops ∈ opss, ∀ op ∈ ops, op.fresh = ∅)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (Wf : Dev nD → Valuation τ sig Val)
    (hjoin : ∀ c, (dats p c).arrays ((dats p c).arrAt · (cfg).N) ⊢ (arrBufs (cfg).spec c (fun b => Wf c (Proc.devRef .tc b)) : sProp 𝕄))
    (hback : ∀ c, (arrBufs (cfg).spec c (fun b => StableHlo.after opss.flatten (Wf c) (Proc.devRef .tc b)) : sProp 𝕄)
      ⊢ (dats p c).arrays ((dats p c).arrAt · (cfg).N))
    (hWf : ∀ c, ∀ b ∈ restRefs sig (cfg).spec, Wf c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g) (SharedPost cfgs dats p Wf opss) := by
  classical
  have hrest : ∀ c, (unscopedRestP (Ix := Unit) (Name := ℕ) (U := UR sig nD τ) (Lvl := ℕ) Prefetch.none (cfg).spec c (fun b => V₀ c (Proc.devRef .tc b)) : sProp 𝕄)
      = unscopedRestP Prefetch.none (cfg).spec c (fun b => Wf c (Proc.devRef .tc b)) := fun c => by
    unfold unscopedRestP
    exact bigSep_congr fun b hb => by dsimp only; rw [hWf c b (Finset.mem_sdiff.mp hb).1]
  exact θ_run_region_pf_tail (fun q => (cfgs q).toPCfg (Val := Val)) (fun q => (cfgs q).toPCfg_adm) dats () hcell p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (Wf c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [hrest c]
      iintro ⟨Hk, Hb, Ha, Hz⟩
      ihave Ha' := (hjoin c) $$ Ha
      iapply (tail_seqs_shared (fun q => (cfgs q).toPCfg (Val := Val)) defs₀ 𝒱₀ Prefetch.none (cfg).spec c (Wf c) opss hsub hfresh Q')
      isplitl [Hk]
      · iintro ⟨Ha, Hz⟩
        iapply Hk
        isplitl [Ha]
        · iapply (hback c); iexact Ha
        · iexact Hz
      isplitl [Hb]; · iexact Hb
      isplitl [Ha']; · iexact Ha'
      iexact Hz)
    (QY := fun c s => ∀ b ∈ restRefsP sig Prefetch.none (cfg).spec, s.mem ((c.tc : Thread nD τ).loc b) = StableHlo.after opss.flatten (Wf c) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b)
        (fun b => StableHlo.after opss.flatten (Wf c) (Proc.devRef .tc b)) s')
      isplitl [HU] <;> iassumption)
    (hQ := fun s h c => ⟨(h c).1, fun b hb => (h c).2.2 b (by
      unfold restRefsP
      rw [show (Finset.univ : Finset (Fin 0)).image (Prefetch.none (sig := sig)).ref = ∅ from rfl, Finset.sdiff_empty]
      exact hb)⟩)

end Frame

end Pipeline

end Idealize.ShloMosaic

end
-- ==== Proof.K.Run.lean ====
/-
  The run of @main around the kernel region: the shared array split between the two input windows at the region's entry
  and rejoined at its exit, the launch, and what every final state holds — both arguments as they were, and the result
  at the host lines after the region applied to the kernel's output array.
-/
import proofs.«177341_j9079560864194_1_alg».proof.Proof.K.Frame
import proofs.«177341_j9079560864194_1_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Buffers the host lines do not write -/

/-- A buffer that is no result of the lines before the region is not written by them. -/
theorem not_written_before (b : Ref sig .tc) (hb : b ≠ main_call0_v0 ∧ b ≠ main_call0_cst ∧ b ≠ main_call0_v1 ∧ b ≠ main_call0_v2 ∧ b ≠ main_v0 ∧ b ≠ main_cst ∧ b ≠ main_v1 ∧ b ≠ main_v2 ∧ b ≠ main_v3 ∧ b ≠ main_v4 ∧ b ≠ main_call1_v0 ∧ b ≠ main_call1_cst ∧ b ≠ main_call1_v1 ∧ b ≠ main_call1_v2 ∧ b ≠ main_v5 ∧ b ≠ main_cst_0 ∧ b ≠ main_v6 ∧ b ≠ main_v7 ∧ b ≠ main_v8 ∧ b ≠ main_v9 ∧ b ≠ main_v10 ∧ b ≠ main_v11) :
    ∀ op ∈ (List.flatten [hostOps0, hostOps0_1, hostOps0_2, hostOps0_3] : List (HloOp τ sig (Elt F))), Proc.devRef .tc b ∉ op.writes := by
  obtain ⟨h0, h1, h2, h3, h4, h5, h6, h7, h8, h9, h10, h11, h12, h13, h14, h15, h16, h17, h18, h19, h20, h21⟩ := hb
  intro op hop
  simp only [List.flatten_cons, List.flatten_nil, List.append_nil, List.cons_append, List.nil_append, List.mem_cons, List.mem_nil_iff, or_false] at hop
  rcases hop with rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer that is no result of the lines after the region is not written by them. -/
theorem not_written_after (b : Ref sig .tc) (hb : b ≠ main_v13 ∧ b ≠ main_v14 ∧ b ≠ main_cst_1 ∧ b ≠ main_v15 ∧ b ≠ main_v16 ∧ b ≠ main_v17 ∧ b ≠ main_cst_2 ∧ b ≠ main_v18 ∧ b ≠ main_v19 ∧ b ≠ main_v20 ∧ b ≠ main_cst_3 ∧ b ≠ main_v21 ∧ b ≠ main_cst_4 ∧ b ≠ main_v22) :
    ∀ op ∈ (List.flatten [hostOps1] : List (HloOp τ sig (Elt F))), Proc.devRef .tc b ∉ op.writes := by
  obtain ⟨h0, h1, h2, h3, h4, h5, h6, h7, h8, h9, h10, h11, h12, h13⟩ := hb
  intro op hop
  simp only [List.flatten_cons, List.flatten_nil, List.append_nil, List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-! ## The region's exit contents -/

open Classical in
/-- Core `c`'s contents when the region is left: the output array at what the write-backs made of it, every other
    buffer — the shared input array among them — as the region found it. -/
def Wf (c : Dev nD) : Valuation τ sig (Elt F) :=
  Function.update (V0 m c) (Proc.devRef .tc main_v12) ((dats m 0 c).arrAt 2 cfg0.N)

theorem Wf_out (c : Dev nD) : Wf m c (Proc.devRef .tc main_v12) = (dats m 0 c).arrAt 2 cfg0.N := by
  unfold Wf; exact Function.update_self ..

theorem Wf_of_ne (c : Dev nD) (b : Ref sig .tc) (hb : b ≠ main_v12) : Wf m c (Proc.devRef .tc b) = V0 m c (Proc.devRef .tc b) := by
  unfold Wf; exact Function.update_of_ne (StableHlo.devRef_ne_of_ne hb) ..

theorem hWf (c : Dev nD) : ∀ b ∈ Pipeline.restRefs sig spec0, Wf m c (Proc.devRef .tc b) = V0 m c (Proc.devRef .tc b) := fun b hb =>
  Wf_of_ne m c b fun e => (Finset.mem_sdiff.mp hb).2 (Finset.mem_image.mpr ⟨2, Finset.mem_univ _, e.symm⟩)

/-! ## The shared array, split and rejoined -/

theorem share_row (c : Dev nD) : (dats m 0 c).share 0 = fullShare.left := rfl
theorem share_col (c : Dev nD) : (dats m 0 c).share 1 = fullShare.right := rfl
theorem share_out (c : Dev nD) : (dats m 0 c).share 2 = fullShare := rfl

theorem arrRefs_eq : Finset.univ.image (Pipeline.arrRef spec0) = [main_v11, main_v12].toFinset := by decide

/-- The windows' arrays, one by one: the matrix of unit rows at half the full share for the row-tile window and the other half
    for the column-tile window, the result array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v11) ↦{fullShare.left} G 0) ∗ (((c : Thread nD τ).loc main_v11) ↦{fullShare.right} G 1)
          ∗ (((c : Thread nD τ).loc main_v12) ↦{fullShare} G 2)) := by
  unfold Dat.arrays
  rw [bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  simp only [e0, e1, e2]
  rw [share_row, share_col, share_out]

theorem arrBufs_eq2 (c : Dev nD) (W : (b : Ref sig .tc) → Buf (Elt F) ((c : Thread nD τ).loc b)) :
    (Pipeline.arrBufs spec0 c W : sProp 𝕄)
      = iprop((((c : Thread nD τ).loc main_v11) ↦{fullShare} W main_v11) ∗ (((c : Thread nD τ).loc main_v12) ↦{fullShare} W main_v12)) := by
  unfold Pipeline.arrBufs
  rw [bigSep_eq_bigSepL_of_eq [main_v11, main_v12] arrRefs_eq (by decide)]
  rfl

theorem hsplit (c : Dev nD) : (Pipeline.arrBufs spec0 c (fun b => V0 m c (Proc.devRef .tc b)) : sProp 𝕄)
    ⊢ (dats m 0 c).arrays ((dats m 0 c).arrAt · 0) := by
  rw [arrBufs_eq2, arrays_eq3]
  iintro ⟨H11, H12⟩
  ihave H := (pointsTo_share (PosShare.mem_left_op_right fullShare)).1 $$ H11
  icases H with ⟨Ha, Hb⟩
  isplitl [Ha]; · iexact Ha
  isplitl [Hb]; · iexact Hb
  iexact H12

theorem arrAt_row (c : Dev nD) (n : ℕ) : (dats m 0 c).arrAt 0 n = V m c main_v11 :=
  ((dats m 0 c).arrAt_in 0 rfl n).trans (A_eq m c 0)
theorem arrAt_col (c : Dev nD) (n : ℕ) : (dats m 0 c).arrAt 1 n = V m c main_v11 :=
  ((dats m 0 c).arrAt_in 1 rfl n).trans (A_eq m c 1)

theorem hjoin (c : Dev nD) : (dats m 0 c).arrays ((dats m 0 c).arrAt · cfg0.N)
    ⊢ (Pipeline.arrBufs spec0 c (fun b => Wf m c (Proc.devRef .tc b)) : sProp 𝕄) := by
  rw [arrBufs_eq2, arrays_eq3]
  rw [arrAt_row, arrAt_col, Wf_out, Wf_of_ne m c main_v11 (by decide)]
  iintro ⟨Ha, Hb, H12⟩
  isplitl [Ha Hb]
  · iapply (pointsTo_share (PosShare.mem_left_op_right fullShare)).2
    isplitl [Ha] <;> iassumption
  iexact H12

theorem hback (c : Dev nD) : (Pipeline.arrBufs spec0 c (fun b => StableHlo.after (List.flatten [hostOps1]) (Wf m c) (Proc.devRef .tc b)) : sProp 𝕄)
    ⊢ (dats m 0 c).arrays ((dats m 0 c).arrAt · cfg0.N) := by
  rw [arrBufs_eq2, arrays_eq3]
  rw [StableHlo.after_of_forall_not_mem _ _ (not_written_after main_v11 (by decide)),
    StableHlo.after_of_forall_not_mem _ _ (not_written_after main_v12 (by decide)),
    arrAt_row, arrAt_col, Wf_out, Wf_of_ne m c main_v11 (by decide)]
  iintro ⟨H11, H12⟩
  ihave H := (pointsTo_share (PosShare.mem_left_op_right fullShare)).1 $$ H11
  icases H with ⟨Ha, Hb⟩
  isplitl [Ha]; · iexact Ha
  isplitl [Hb]; · iexact Hb
  iexact H12

/-! ## The run -/

set_option backward.isDefEq.respectTransparency.types false in
/-- From any memory with zero counters every weakly fair execution of @main terminates, nothing faulting, and every
    final state has the windows' arrays at what the proof data computes and every other unscoped buffer at the lines after
    the region applied to the region's exit contents. -/
theorem run_main : θ_run defs (onTc (τ := τ) (main (F := F))) (s₀ m ρ) (Pipeline.SharedPost cfgs (dats m) 0 (Wf m) [hostOps1]) :=
  Pipeline.θ_run_frame_around_track_shared cfgs (dats m) (0 : Fin 1) defs₀ Variants.none cellOf_inj winFacts₀0 block_pos0 arr_whole0 stage_whole0
    m ρ main (hbody := fun c => (body_obligation m c).loose) (howed := fun _ _ => rfl) (V₀ := V0 m) (opss := [hostOps1])
    (hsub := after_sub) (hfresh := after_fresh) (hmain := hmain m Variants.none)
    (hsplit := hsplit m) (Wf := Wf m) (hjoin := hjoin m) (hback := hback m) (hWf := hWf m) (hin := hin m) (hout := hout m)

/-- An argument of @main is written by no host line and is no array of the kernel's: it ends as it was. -/
theorem kept (c : Dev nD) (b : Ref sig .tc) (h1 : b ≠ main_call0_v0 ∧ b ≠ main_call0_cst ∧ b ≠ main_call0_v1 ∧ b ≠ main_call0_v2 ∧ b ≠ main_v0 ∧ b ≠ main_cst ∧ b ≠ main_v1 ∧ b ≠ main_v2 ∧ b ≠ main_v3 ∧ b ≠ main_v4 ∧ b ≠ main_call1_v0 ∧ b ≠ main_call1_cst ∧ b ≠ main_call1_v1 ∧ b ≠ main_call1_v2 ∧ b ≠ main_v5 ∧ b ≠ main_cst_0 ∧ b ≠ main_v6 ∧ b ≠ main_v7 ∧ b ≠ main_v8 ∧ b ≠ main_v9 ∧ b ≠ main_v10 ∧ b ≠ main_v11) (h2 : b ≠ main_v13 ∧ b ≠ main_v14 ∧ b ≠ main_cst_1 ∧ b ≠ main_v15 ∧ b ≠ main_v16 ∧ b ≠ main_v17 ∧ b ≠ main_cst_2 ∧ b ≠ main_v18 ∧ b ≠ main_v19 ∧ b ≠ main_v20 ∧ b ≠ main_cst_3 ∧ b ≠ main_v21 ∧ b ≠ main_cst_4 ∧ b ≠ main_v22) (h3 : b ≠ main_v12) :
    StableHlo.after (List.flatten [hostOps1]) (Wf m c) (Proc.devRef .tc b) = m ((c : Thread nD τ).loc b) :=
  (StableHlo.after_of_forall_not_mem _ _ (not_written_after b h2)).trans
    ((Wf_of_ne m c b h3).trans (StableHlo.after_of_forall_not_mem _ _ (not_written_before b h1)))

/-- THE FRAME, at any instance of the float operations: @main runs and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (kept m c main_arg0 (by decide) (by decide) (by decide)),
     ((h c).2 main_arg1 (Pipeline.mem_restRefs_of main_arg1 rfl (by decide))).trans (kept m c main_arg1 (by decide) (by decide) (by decide))⟩) (run_main m ρ)

/-- The run with the result NAMED: it ends at the lines after the region applied to the region's exit contents. -/
theorem run_value : θ_run defs (onTc (τ := τ) (main (F := F))) ⟨m, fun _ => 0, ρ⟩ (fun r => ∀ c : Dev nD,
      r.2.mem ((c.tc : Thread nD τ).loc main_v22) = StableHlo.after (List.flatten [hostOps1]) (Wf m c) (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v22 (Pipeline.mem_restRefs_of main_v22 rfl (by decide)),
     ((h c).2 main_arg0 (Pipeline.mem_restRefs_of main_arg0 rfl (by decide))).trans (kept m c main_arg0 (by decide) (by decide) (by decide)),
     ((h c).2 main_arg1 (Pipeline.mem_restRefs_of main_arg1 rfl (by decide))).trans (kept m c main_arg1 (by decide) (by decide) (by decide))⟩) (run_main m ρ)

end Cert.Kernel.Hand

end
-- ==== Proof.KI.Setup.lean ====
/-
  The program around its one kernel region, and what the region's body is run against.

  @main normalises the rows of both arguments (four stretches of host operations, ending in the 8192×768 matrix of unit
  rows `main_v11`), launches the kernel on an 8×8 grid — point (i, j) is handed row tile i of that matrix through window
  0 and row tile j of THE SAME matrix through window 1, and accumulates into a 1024×1 scratch column —, and finishes
  with fourteen host operations. Here: the contents of the buffers when the region is entered (`V`), @main as
  "host lines, the region, host lines", each window's block at a grid point (`iblk`) and that both input windows'
  staging buffers hold their blocks whenever the body runs, the body's two conditions in closed form over the grid
  (column block j = 0: the accumulator is reset; j = 7: the accumulated column is stored to the output window), and
  where the output window is idle.
-/
import proofs.«177341_j9079560864194_1_alg».proof.Proof.Gen.KernelIdeal.Launch
import proofs.«177341_j9079560864194_1_alg».proof.Proof.Gen.KernelIdeal.Skeleton
import proofs.«177341_j9079560864194_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch. -/
abbrev linesBefore : List (List (HloOp τ sig (Elt F))) := [hostOps0, hostOps0_1, hostOps0_2, hostOps0_3]

/-- Core `c`'s buffer contents when the region is entered: after the host lines before it. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the lines after it, at the contents after the lines before it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    ⟨hostOps0_fresh, hostOps0_1_fresh, hostOps0_2_fresh, hostOps0_3_fresh⟩ main_chain

/-- The lines after the region touch unscoped TensorCore buffers only. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile window's staging buffer holds row tile i at every point (i, j), though it is fetched only at j = 0:
    between fetches the block index does not move and the body leaves the buffer as it found it. -/
theorem beforeRow_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile window's staging buffer holds row tile j at every point (i, j). -/
theorem beforeCol_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first column block of the row tile" (j = 0), as the body computes it. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last column block of the row tile" (j = 7), as the body computes it. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem liveRow : ∀ t : Fin cfg0.N, cfg0.idle 0 (grid0.coords t) = false := by decide +kernel
theorem liveCol : ∀ t : Fin cfg0.N, cfg0.idle 1 (grid0.coords t) = false := by decide +kernel
/-- Before the last column block the body stores nothing into the output window, -/
theorem idleOut : ∀ t : Fin cfg0.N, ¬isLast (grid0.coords t) → cfg0.idle 2 (grid0.coords t) = true := by decide +kernel
/-- and the pipeline does not write its block back there. -/
theorem noFlushOut : ∀ t : Fin cfg0.N, ¬isLast (grid0.coords t) → (cfg0.win 2).flush t = false := by decide +kernel
/-- At the last column block the output window is stored into. -/
theorem liveOut : ∀ t : Fin cfg0.N, isLast (grid0.coords t) → cfg0.idle 2 (grid0.coords t) = false := by decide +kernel

/-! ## The staging memrefs and the accumulator -/

/-- One staging buffer of the output window, through which its contents are stated. -/
abbrev VOut : View sig .tc .vmem S1024x1 .f32 := (Memref.whole cc0_stg2_0 : Memref sig .tc .vmem S1024x1 .f32).view
abbrev msRow (t : Fin cfg0.N) : Memref sig .tc .vmem S1024x768 .bf16 := win0_0.stage (cfg0.slots t 0)
abbrev hsRow (t : Fin cfg0.N) : (msRow t).IsWhole := hstage0_0 ((cfg0.slots t 0).cast nbuf0_0)
abbrev msCol (t : Fin cfg0.N) : Memref sig .tc .vmem S1024x768 .bf16 := win0_1.stage (cfg0.slots t 1)
abbrev hsCol (t : Fin cfg0.N) : (msCol t).IsWhole := hstage0_1 ((cfg0.slots t 1).cast nbuf0_1)
abbrev msOut (t : Fin cfg0.N) : Memref sig .tc .vmem S1024x1 .f32 := win0_2.stage (cfg0.slots t 2)
abbrev hsOut (t : Fin cfg0.N) : (msOut t).IsWhole := hstage0_2 ((cfg0.slots t 2).cast nbuf0_2)
/-- The accumulator: a whole scoped buffer of the kernel's own. -/
abbrev accM : Memref sig .tc .vmem S1024x1 .f32 := Memref.whole cc0_scratch0
abbrev VAcc : View sig .tc .vmem S1024x1 .f32 := accM.view

/-- The class's region invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KI.RunFirst.lean ====
/-
  The kernel body at a point of the FIRST column block (j = 0): the accumulator, at whatever it held, is reset to zero and then added the block's masked row sums; the output window is not touched.
-/
import proofs.«177341_j9079560864194_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The body at a point with j = 0 and j ≠ 7, on whole memrefs: the two tiles at their contents `x0`, `x1`, the output
    window's buffer at `xo` (handed back untouched), the accumulator at anything. It runs to the continuation with the
    accumulator holding the pieces `LA` its two stores wrote (the pieces are what the symbolic run finds). -/
noncomputable def runFirst (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i)
    (x0 x1 : Vec F S1024x768 .bf16) :
    Σ' (LO : List (View.Piece (Elt F) S1024x1 .f32)), { LA : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__denom_kernel i arg2 harg2 arg3 harg3 arg4 harg4 arg5 harg5) K } := by
  refine ⟨[], ?_, fun xo E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.RunMid.lean ====
/-
  The kernel body at a point of a MIDDLE column block (0 < j < 7): the accumulator, at what the point before left, is added the block's masked row sums; the output window is not touched.
-/
import proofs.«177341_j9079560864194_1_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point with j ≠ 0 and j ≠ 7: as `runFirst`, the accumulator handed in at the contents `xs` the point
    before left. -/
noncomputable def runMid (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i)
    (x0 x1 : Vec F S1024x768 .bf16) (xs : Vec F S1024x1 .f32) :
    Σ' (LO : List (View.Piece (Elt F) S1024x1 .f32)), { LA : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__denom_kernel i arg2 harg2 arg3 harg3 arg4 harg4 arg5 harg5) K } := by
  refine ⟨[], ?_, fun xo E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.RunLast.lean ====
/-
  The kernel body at a point of the LAST column block (j = 7): the accumulator, at what the point before left, is added the block's masked row sums, and the finished column is stored to the output window.
-/
import proofs.«177341_j9079560864194_1_alg».proof.Proof.KI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point with j ≠ 0 and j = 7: the accumulator handed in at `xs`, the output window's buffer at anything;
    both end with the pieces the stores wrote (`LA`, `LO`). -/
noncomputable def runLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i)
    (x0 x1 : Vec F S1024x768 .bf16) (xs : Vec F S1024x1 .f32) :
    Σ' (LO : List (View.Piece (Elt F) S1024x1 .f32)), { LA : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KI.Frame.lean ====
/-
  The kernel region, point by point, and the run of @main around it.

  For a row tile i the kernel visits the column blocks j = 0 … 7 in order. Its accumulator column (a scratch buffer the
  kernel carries from point to point) is reset at j = 0 and then, at every j, added the row sums over column block j of
  `exp(2·⟨row, col⟩)` with the diagonal entries (global row = global column) replaced by zero; at j = 7 the finished column
  is stored to the output window, which the pipeline writes back to rows 1024·i … of the result. `stateAt` names what
  the output window's buffer and the accumulator hold after each point, by recursion on the point: the case's run at the
  point's two tiles, over what the point before left in the accumulator. The region invariant holds the accumulator at
  exactly that. Both input windows read ONE array: each holds it at half the full share, split at the region's entry and
  rejoined at its exit.
-/
import proofs.«177341_j9079560864194_1_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A value for the output window's buffer where nothing consults it (the window idle and not written back). -/
def outIdle : Vec F S1024x1 .f32 := VOut.read (Elt F) VOut.junk

/-- j = 0: the two stores into the accumulator cover it. -/
theorem coverFirst (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 x1 : Vec F S1024x768 .bf16) (y : S1024x1.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S1024x1.size (by sl_kernel_rfl) y
/-- What the accumulator holds after a point with j = 0. -/
def accFirst (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 x1 : Vec F S1024x768 .bf16) : Vec F S1024x1 .f32 :=
  VAcc.read (Elt F) (VAcc.writes (Elt F) VAcc.junk (runFirst c i arg2 harg2 arg3 harg3 arg4 harg4 arg5 harg5 hc0 hc1 x0 x1).2.1)

theorem coverMid (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 x1 : Vec F S1024x768 .bf16) (xs : Vec F S1024x1 .f32) (y : S1024x1.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S1024x1.size (by sl_kernel_rfl) y
/-- What the accumulator holds after a point with 0 < j < 7, over what the point before left (`xs`). -/
def accMid (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 x1 : Vec F S1024x768 .bf16) (xs : Vec F S1024x1 .f32) : Vec F S1024x1 .f32 :=
  VAcc.read (Elt F) (VAcc.writes (Elt F) VAcc.junk (runMid c i arg2 harg2 arg3 harg3 arg4 harg4 arg5 harg5 hc0 hc1 x0 x1 xs).2.1)

theorem coverLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) (y : S1024x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x1.size (by sl_kernel_rfl) y
/-- What the accumulator holds after a point with j = 7. -/
def accLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) : Vec F S1024x1 .f32 :=
  VAcc.read (Elt F) (VAcc.writes (Elt F) VAcc.junk (runLast c i arg2 harg2 arg3 harg3 arg4 harg4 arg5 harg5 hc0 hc1 x0 x1 xs).2.1)
theorem coverOutLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) (y : S1024x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x1.size (by sl_kernel_rfl) y
/-- What the output window's buffer holds after a point with j = 7. -/
def outLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) : Vec F S1024x1 .f32 :=
  VOut.read (Elt F) (VOut.writes (Elt F) VOut.junk (runLast c i arg2 harg2 arg3 harg3 arg4 harg4 arg5 harg5 hc0 hc1 x0 x1 xs).1)

/-! ## The accumulation, point by point -/

/-- What the output window's buffer and the accumulator hold after the body at position `n`. -/
def stateAt (c : Dev nD) : (n : ℕ) → n < cfg0.N → Vec F S1024x1 .f32 × Vec F S1024x1 .f32
  | 0, hn => (outIdle, accFirst c (grid0.coords ⟨0, hn⟩) (msRow ⟨0, hn⟩) (hsRow ⟨0, hn⟩) (msCol ⟨0, hn⟩) (hsCol ⟨0, hn⟩) (msOut ⟨0, hn⟩) (hsOut ⟨0, hn⟩) accM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (outIdle, accFirst c (grid0.coords ⟨n + 1, hn⟩) (msRow ⟨n + 1, hn⟩) (hsRow ⟨n + 1, hn⟩) (msCol ⟨n + 1, hn⟩) (hsCol ⟨n + 1, hn⟩) (msOut ⟨n + 1, hn⟩) (hsOut ⟨n + 1, hn⟩) accM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩))
    else
      if h1 : (n + 1) % 8 = 7 then
        (outLast c (grid0.coords ⟨n + 1, hn⟩) (msRow ⟨n + 1, hn⟩) (hsRow ⟨n + 1, hn⟩) (msCol ⟨n + 1, hn⟩) (hsCol ⟨n + 1, hn⟩) (msOut ⟨n + 1, hn⟩) (hsOut ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (stateAt c n (Nat.lt_of_succ_lt hn)).2,
          accLast c (grid0.coords ⟨n + 1, hn⟩) (msRow ⟨n + 1, hn⟩) (hsRow ⟨n + 1, hn⟩) (msCol ⟨n + 1, hn⟩) (hsCol ⟨n + 1, hn⟩) (msOut ⟨n + 1, hn⟩) (hsOut ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (stateAt c n (Nat.lt_of_succ_lt hn)).2)
      else
        (outIdle, accMid c (grid0.coords ⟨n + 1, hn⟩) (msRow ⟨n + 1, hn⟩) (hsRow ⟨n + 1, hn⟩) (msCol ⟨n + 1, hn⟩) (hsCol ⟨n + 1, hn⟩) (msOut ⟨n + 1, hn⟩) (hsOut ⟨n + 1, hn⟩) accM (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (stateAt c n (Nat.lt_of_succ_lt hn)).2)

theorem stateAt_first (c : Dev nD) (t : Fin cfg0.N) (h0 : t.val % 8 = 0) (h1 : ¬t.val % 8 = 7) :
    stateAt m c t.val t.isLt = (outIdle, accFirst c (grid0.coords t) (msRow t) (hsRow t) (msCol t) (hsCol t) (msOut t) (hsOut t) accM (Memref.isWhole_whole _) ((isFirst_iff t).mpr h0) (fun h => h1 ((isLast_iff t).mp h)) (iblk m c 0 t) (iblk m c 1 t)) := by
  obtain ⟨n, hn⟩ := t
  cases n with
  | zero => exact rfl
  | succ n => exact (dif_pos h0).trans ((dif_neg h1).trans rfl)

theorem stateAt_mid (c : Dev nD) (t : Fin cfg0.N) (h0 : ¬t.val % 8 = 0) (h1 : ¬t.val % 8 = 7) :
    stateAt m c t.val t.isLt = (outIdle, accMid c (grid0.coords t) (msRow t) (hsRow t) (msCol t) (hsCol t) (msOut t) (hsOut t) accM (Memref.isWhole_whole _) (fun h => h0 ((isFirst_iff t).mp h)) (fun h => h1 ((isLast_iff t).mp h)) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 8 = 0) (h1 : t.val % 8 = 7) :
    stateAt m c t.val t.isLt = (outLast c (grid0.coords t) (msRow t) (hsRow t) (msCol t) (hsCol t) (msOut t) (hsOut t) accM (Memref.isWhole_whole _) (fun h => h0 ((isFirst_iff t).mp h)) ((isLast_iff t).mpr h1) (iblk m c 0 t) (iblk m c 1 t) (stateAt m c (t.val - 1) (Nat.lt_of_le_of_lt (Nat.sub_le _ _) t.isLt)).2,
      accLast c (grid0.coords t) (msRow t) (hsRow t) (msCol t) (hsCol t) (msOut t) (hsOut t) accM (Memref.isWhole_whole _) (fun h => h0 ((isFirst_iff t).mp h)) ((isLast_iff t).mpr h1) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator at what the point before left -/

def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stateAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- The arrays as the region finds them; after the body each input window's buffer at its block, the output window's at
    `stateAt`; the invariant `PhiS`; the shared array at half the full share per input window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem afterRow (c : Dev nD) (t : Fin cfg0.N) : (dats m 0 c).after 0 t = iblk m c 0 t := by dsimp only [dats]
theorem afterCol (c : Dev nD) (t : Fin cfg0.N) : (dats m 0 c).after 1 t = iblk m c 1 t := by dsimp only [dats]
theorem afterOut (c : Dev nD) (t : Fin cfg0.N) : (dats m 0 c).after 2 t = (stateAt m c t.val t.isLt).1 := by dsimp only [dats]
theorem beforeRow (c : Dev nD) (t : Fin cfg0.N) (d) : (dats m 0 c).before 0 t d = iblk m c 0 t :=
  beforeRow_of m (dats m 0 c) (A_eq m c 0) (afterRow m c) t d
theorem beforeCol (c : Dev nD) (t : Fin cfg0.N) (d) : (dats m 0 c).before 1 t d = iblk m c 1 t :=
  beforeCol_of m (dats m 0 c) (A_eq m c 1) (afterCol m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msRow t) fullShare ((dats m 0 c).before 0 t d))
    ∗ (∃ d, owns (c : Thread nD τ) (msCol t) fullShare ((dats m 0 c).before 1 t d))
    ∗ (∃ d, owns (c : Thread nD τ) (msOut t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input windows' buffers hold their tiles; the closed forms say which case the point is in;
    the invariant hands the body the accumulator at what the point before left (at anything before the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeRow, beforeCol]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (msRow t) fullShare ((dats m 0 c).after 0 t) from by
    unfold Dat.leavesExact; rw [liveRow t], afterRow]
  rw [show (dats m 0 c).leavesExact 1 t = owns (c : Thread nD τ) (msCol t) fullShare ((dats m 0 c).after 1 t) from by
    unfold Dat.leavesExact; rw [liveCol t], afterCol]
  by_cases h0 : t.val % 8 = 0
  · have h1 : ¬t.val % 8 = 7 := by omega
    rw [Dat.leavesExact_idle (dats m 0 c) 2 t (idleOut t (fun h => h1 ((isLast_iff t).mp h))) (noFlushOut t (fun h => h1 ((isLast_iff t).mp h)))]
    rw [stateAt_first m c t h0 h1]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) (msRow t) (hsRow t) (msCol t) (hsCol t) (msOut t) (hsOut t) accM (Memref.isWhole_whole _) ((isFirst_iff t).mpr h0) (fun h => h1 ((isLast_iff t).mp h)) (iblk m c 0 t) (iblk m c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) (msRow t) (hsRow t) (msCol t) (hsCol t) (msOut t) (hsOut t) accM (Memref.isWhole_whole _) ((isFirst_iff t).mpr h0) (fun h => h1 ((isLast_iff t).mp h)) (iblk m c 0 t) (iblk m c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dats m 0 c).leavesExact 2 t = owns (c : Thread nD τ) (msOut t) fullShare ((dats m 0 c).after 2 t) from by
        unfold Dat.leavesExact; rw [liveOut t ((isLast_iff t).mpr h1)], afterOut]
      rw [stateAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) (msRow t) (hsRow t) (msCol t) (hsCol t) (msOut t) (hsOut t) accM (Memref.isWhole_whole _) (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverOutLast c _ _ _ _ _ _ _ _ _ _ _ _ _ _)
    · rw [Dat.leavesExact_idle (dats m 0 c) 2 t (idleOut t (fun h => h1 ((isLast_iff t).mp h))) (noFlushOut t (fun h => h1 ((isLast_iff t).mp h)))]
      rw [stateAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) (msRow t) (hsRow t) (msCol t) (hsCol t) (msOut t) (hsOut t) accM (Memref.isWhole_whole _) (fun h => h0 ((isFirst_iff t).mp h)) (fun h => h1 ((isLast_iff t).mp h)) (iblk m c 0 t) (iblk m c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

end Cert.KernelIdeal.Hand

end
-- ==== Proof.KI.Run.lean ====
/-
  The run of @main around the kernel region: the shared array split between the two input windows at the region's entry
  and rejoined at its exit, the launch, and what every final state holds — both arguments as they were, and the result
  at the host lines after the region applied to the kernel's output array.
-/
import proofs.«177341_j9079560864194_1_alg».proof.Proof.KI.Frame
import proofs.«177341_j9079560864194_1_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Buffers the host lines do not write -/

/-- A buffer that is no result of the lines before the region is not written by them. -/
theorem not_written_before (b : Ref sig .tc) (hb : b ≠ main_call0_v0 ∧ b ≠ main_call0_cst ∧ b ≠ main_call0_v1 ∧ b ≠ main_call0_v2 ∧ b ≠ main_v0 ∧ b ≠ main_cst ∧ b ≠ main_v1 ∧ b ≠ main_v2 ∧ b ≠ main_v3 ∧ b ≠ main_v4 ∧ b ≠ main_call1_v0 ∧ b ≠ main_call1_cst ∧ b ≠ main_call1_v1 ∧ b ≠ main_call1_v2 ∧ b ≠ main_v5 ∧ b ≠ main_cst_0 ∧ b ≠ main_v6 ∧ b ≠ main_v7 ∧ b ≠ main_v8 ∧ b ≠ main_v9 ∧ b ≠ main_v10 ∧ b ≠ main_v11) :
    ∀ op ∈ (List.flatten [hostOps0, hostOps0_1, hostOps0_2, hostOps0_3] : List (HloOp τ sig (Elt F))), Proc.devRef .tc b ∉ op.writes := by
  obtain ⟨h0, h1, h2, h3, h4, h5, h6, h7, h8, h9, h10, h11, h12, h13, h14, h15, h16, h17, h18, h19, h20, h21⟩ := hb
  intro op hop
  simp only [List.flatten_cons, List.flatten_nil, List.append_nil, List.cons_append, List.nil_append, List.mem_cons, List.mem_nil_iff, or_false] at hop
  rcases hop with rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer that is no result of the lines after the region is not written by them. -/
theorem not_written_after (b : Ref sig .tc) (hb : b ≠ main_v13 ∧ b ≠ main_v14 ∧ b ≠ main_cst_1 ∧ b ≠ main_v15 ∧ b ≠ main_v16 ∧ b ≠ main_v17 ∧ b ≠ main_cst_2 ∧ b ≠ main_v18 ∧ b ≠ main_v19 ∧ b ≠ main_v20 ∧ b ≠ main_cst_3 ∧ b ≠ main_v21 ∧ b ≠ main_cst_4 ∧ b ≠ main_v22) :
    ∀ op ∈ (List.flatten [hostOps1] : List (HloOp τ sig (Elt F))), Proc.devRef .tc b ∉ op.writes := by
  obtain ⟨h0, h1, h2, h3, h4, h5, h6, h7, h8, h9, h10, h11, h12, h13⟩ := hb
  intro op hop
  simp only [List.flatten_cons, List.flatten_nil, List.append_nil, List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-! ## The region's exit contents -/

open Classical in
/-- Core `c`'s contents when the region is left: the output array at what the write-backs made of it, every other
    buffer — the shared input array among them — as the region found it. -/
def Wf (c : Dev nD) : Valuation τ sig (Elt F) :=
  Function.update (V0 m c) (Proc.devRef .tc main_v12) ((dats m 0 c).arrAt 2 cfg0.N)

theorem Wf_out (c : Dev nD) : Wf m c (Proc.devRef .tc main_v12) = (dats m 0 c).arrAt 2 cfg0.N := by
  unfold Wf; exact Function.update_self ..

theorem Wf_of_ne (c : Dev nD) (b : Ref sig .tc) (hb : b ≠ main_v12) : Wf m c (Proc.devRef .tc b) = V0 m c (Proc.devRef .tc b) := by
  unfold Wf; exact Function.update_of_ne (StableHlo.devRef_ne_of_ne hb) ..

theorem hWf (c : Dev nD) : ∀ b ∈ Pipeline.restRefs sig spec0, Wf m c (Proc.devRef .tc b) = V0 m c (Proc.devRef .tc b) := fun b hb =>
  Wf_of_ne m c b fun e => (Finset.mem_sdiff.mp hb).2 (Finset.mem_image.mpr ⟨2, Finset.mem_univ _, e.symm⟩)

/-! ## The shared array, split and rejoined -/

theorem share_row (c : Dev nD) : (dats m 0 c).share 0 = fullShare.left := rfl
theorem share_col (c : Dev nD) : (dats m 0 c).share 1 = fullShare.right := rfl
theorem share_out (c : Dev nD) : (dats m 0 c).share 2 = fullShare := rfl

theorem arrRefs_eq : Finset.univ.image (Pipeline.arrRef spec0) = [main_v11, main_v12].toFinset := by decide

/-- The windows' arrays, one by one: the matrix of unit rows at half the full share for the row-tile window and the other half
    for the column-tile window, the result array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v11) ↦{fullShare.left} G 0) ∗ (((c : Thread nD τ).loc main_v11) ↦{fullShare.right} G 1)
          ∗ (((c : Thread nD τ).loc main_v12) ↦{fullShare} G 2)) := by
  unfold Dat.arrays
  rw [bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  simp only [e0, e1, e2]
  rw [share_row, share_col, share_out]

theorem arrBufs_eq2 (c : Dev nD) (W : (b : Ref sig .tc) → Buf (Elt F) ((c : Thread nD τ).loc b)) :
    (Pipeline.arrBufs spec0 c W : sProp 𝕄)
      = iprop((((c : Thread nD τ).loc main_v11) ↦{fullShare} W main_v11) ∗ (((c : Thread nD τ).loc main_v12) ↦{fullShare} W main_v12)) := by
  unfold Pipeline.arrBufs
  rw [bigSep_eq_bigSepL_of_eq [main_v11, main_v12] arrRefs_eq (by decide)]
  rfl

theorem hsplit (c : Dev nD) : (Pipeline.arrBufs spec0 c (fun b => V0 m c (Proc.devRef .tc b)) : sProp 𝕄)
    ⊢ (dats m 0 c).arrays ((dats m 0 c).arrAt · 0) := by
  rw [arrBufs_eq2, arrays_eq3]
  iintro ⟨H11, H12⟩
  ihave H := (pointsTo_share (PosShare.mem_left_op_right fullShare)).1 $$ H11
  icases H with ⟨Ha, Hb⟩
  isplitl [Ha]; · iexact Ha
  isplitl [Hb]; · iexact Hb
  iexact H12

theorem arrAt_row (c : Dev nD) (n : ℕ) : (dats m 0 c).arrAt 0 n = V m c main_v11 :=
  ((dats m 0 c).arrAt_in 0 rfl n).trans (A_eq m c 0)
theorem arrAt_col (c : Dev nD) (n : ℕ) : (dats m 0 c).arrAt 1 n = V m c main_v11 :=
  ((dats m 0 c).arrAt_in 1 rfl n).trans (A_eq m c 1)

theorem hjoin (c : Dev nD) : (dats m 0 c).arrays ((dats m 0 c).arrAt · cfg0.N)
    ⊢ (Pipeline.arrBufs spec0 c (fun b => Wf m c (Proc.devRef .tc b)) : sProp 𝕄) := by
  rw [arrBufs_eq2, arrays_eq3]
  rw [arrAt_row, arrAt_col, Wf_out, Wf_of_ne m c main_v11 (by decide)]
  iintro ⟨Ha, Hb, H12⟩
  isplitl [Ha Hb]
  · iapply (pointsTo_share (PosShare.mem_left_op_right fullShare)).2
    isplitl [Ha] <;> iassumption
  iexact H12

theorem hback (c : Dev nD) : (Pipeline.arrBufs spec0 c (fun b => StableHlo.after (List.flatten [hostOps1]) (Wf m c) (Proc.devRef .tc b)) : sProp 𝕄)
    ⊢ (dats m 0 c).arrays ((dats m 0 c).arrAt · cfg0.N) := by
  rw [arrBufs_eq2, arrays_eq3]
  rw [StableHlo.after_of_forall_not_mem _ _ (not_written_after main_v11 (by decide)),
    StableHlo.after_of_forall_not_mem _ _ (not_written_after main_v12 (by decide)),
    arrAt_row, arrAt_col, Wf_out, Wf_of_ne m c main_v11 (by decide)]
  iintro ⟨H11, H12⟩
  ihave H := (pointsTo_share (PosShare.mem_left_op_right fullShare)).1 $$ H11
  icases H with ⟨Ha, Hb⟩
  isplitl [Ha]; · iexact Ha
  isplitl [Hb]; · iexact Hb
  iexact H12

/-! ## The run -/

set_option backward.isDefEq.respectTransparency.types false in
/-- From any memory with zero counters every weakly fair execution of @main terminates, nothing faulting, and every
    final state has the windows' arrays at what the proof data computes and every other unscoped buffer at the lines after
    the region applied to the region's exit contents. -/
theorem run_main : θ_run defs (onTc (τ := τ) (main (F := F))) (s₀ m ρ) (Pipeline.SharedPost cfgs (dats m) 0 (Wf m) [hostOps1]) :=
  Pipeline.θ_run_frame_around_track_shared cfgs (dats m) (0 : Fin 1) defs₀ Variants.none cellOf_inj winFacts₀0 block_pos0 arr_whole0 stage_whole0
    m ρ main (hbody := fun c => (body_obligation m c).loose) (howed := fun _ _ => rfl) (V₀ := V0 m) (opss := [hostOps1])
    (hsub := after_sub) (hfresh := after_fresh) (hmain := hmain m Variants.none)
    (hsplit := hsplit m) (Wf := Wf m) (hjoin := hjoin m) (hback := hback m) (hWf := hWf m) (hin := hin m) (hout := hout m)

/-- An argument of @main is written by no host line and is no array of the kernel's: it ends as it was. -/
theorem kept (c : Dev nD) (b : Ref sig .tc) (h1 : b ≠ main_call0_v0 ∧ b ≠ main_call0_cst ∧ b ≠ main_call0_v1 ∧ b ≠ main_call0_v2 ∧ b ≠ main_v0 ∧ b ≠ main_cst ∧ b ≠ main_v1 ∧ b ≠ main_v2 ∧ b ≠ main_v3 ∧ b ≠ main_v4 ∧ b ≠ main_call1_v0 ∧ b ≠ main_call1_cst ∧ b ≠ main_call1_v1 ∧ b ≠ main_call1_v2 ∧ b ≠ main_v5 ∧ b ≠ main_cst_0 ∧ b ≠ main_v6 ∧ b ≠ main_v7 ∧ b ≠ main_v8 ∧ b ≠ main_v9 ∧ b ≠ main_v10 ∧ b ≠ main_v11) (h2 : b ≠ main_v13 ∧ b ≠ main_v14 ∧ b ≠ main_cst_1 ∧ b ≠ main_v15 ∧ b ≠ main_v16 ∧ b ≠ main_v17 ∧ b ≠ main_cst_2 ∧ b ≠ main_v18 ∧ b ≠ main_v19 ∧ b ≠ main_v20 ∧ b ≠ main_cst_3 ∧ b ≠ main_v21 ∧ b ≠ main_cst_4 ∧ b ≠ main_v22) (h3 : b ≠ main_v12) :
    StableHlo.after (List.flatten [hostOps1]) (Wf m c) (Proc.devRef .tc b) = m ((c : Thread nD τ).loc b) :=
  (StableHlo.after_of_forall_not_mem _ _ (not_written_after b h2)).trans
    ((Wf_of_ne m c b h3).trans (StableHlo.after_of_forall_not_mem _ _ (not_written_before b h1)))

/-- THE FRAME, at any instance of the float operations: @main runs and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (kept m c main_arg0 (by decide) (by decide) (by decide)),
     ((h c).2 main_arg1 (Pipeline.mem_restRefs_of main_arg1 rfl (by decide))).trans (kept m c main_arg1 (by decide) (by decide) (by decide))⟩) (run_main m ρ)

/-- The run with the result NAMED: it ends at the lines after the region applied to the region's exit contents. -/
theorem run_value : θ_run defs (onTc (τ := τ) (main (F := F))) ⟨m, fun _ => 0, ρ⟩ (fun r => ∀ c : Dev nD,
      r.2.mem ((c.tc : Thread nD τ).loc main_v22) = StableHlo.after (List.flatten [hostOps1]) (Wf m c) (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v22 (Pipeline.mem_restRefs_of main_v22 rfl (by decide)),
     ((h c).2 main_arg0 (Pipeline.mem_restRefs_of main_arg0 rfl (by decide))).trans (kept m c main_arg0 (by decide) (by decide) (by decide)),
     ((h c).2 main_arg1 (Pipeline.mem_restRefs_of main_arg1 rfl (by decide))).trans (kept m c main_arg1 (by decide) (by decide) (by decide))⟩) (run_main m ρ)

end Cert.KernelIdeal.Hand

end
-- ==== Proof.KI.Pieces.lean ====
/-
  What each case's run found, as the kernel's arithmetic: in every case the accumulator ends at the payload of the body's one
  accumulating store — the masked row sums of the block added to what the accumulator held (zero, freshly stored, at the
  first column block) —, and at the last column block the output window's buffer ends at the same column, read back from the
  accumulator after that store. Stated for any instance of the float operations.
-/
import proofs.«177341_j9079560864194_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- j = 0: the reset column is stored, read back, and added the block's sums. -/
theorem accFirst_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i) (x0 x1 : Vec F S1024x768 .bf16) :
    accFirst c i arg2 harg2 arg3 harg3 arg4 harg4 arg5 harg5 hc0 hc1 x0 x1 = k0_pay2 i x0 x1 (k0_pay1 (F := F)) := by
  unfold accFirst
  rw [View.read_writes_eq_canon _ _ _ (coverFirst c i arg2 harg2 arg3 harg3 arg4 harg4 arg5 harg5 hc0 hc1 x0 x1)]
  unfold runFirst
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x768) hz]

/-- 0 < j < 7: the accumulator is added the block's sums. -/
theorem accMid_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i) (x0 x1 : Vec F S1024x768 .bf16) (xs : Vec F S1024x1 .f32) :
    accMid c i arg2 harg2 arg3 harg3 arg4 harg4 arg5 harg5 hc0 hc1 x0 x1 xs = k0_pay2 i x0 x1 xs := by
  unfold accMid
  rw [View.read_writes_eq_canon _ _ _ (coverMid c i arg2 harg2 arg3 harg3 arg4 harg4 arg5 harg5 hc0 hc1 x0 x1 xs)]
  unfold runMid
  dsimp only
  rw [View.canon_unit_zero hz]
  simp only [View.readAt_eq_ld, harg2.read_unread, harg3.read_unread, harg5.read_unread, View.ld_unit_zero (S := S1024x768) hz,
    View.ld_unit_zero (S := S1024x1) hz]

/-- j = 7: the accumulator is added the block's sums, -/
theorem accLast_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) :
    accLast c i arg2 harg2 arg3 harg3 arg4 harg4 arg5 harg5 hc0 hc1 x0 x1 xs = k0_pay2 i x0 x1 xs := by
  unfold accLast
  rw [View.read_writes_eq_canon _ _ _ (coverLast c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S1024x768) hz,
    View.ld_unit_zero (S := S1024x1) hz]

/-- and the output window's buffer is stored the finished column. -/
theorem outLast_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i) (x0 x1 : Vec F S1024x768 .bf16) (xs : Vec F S1024x1 .f32) :
    outLast c i arg2 harg2 arg3 harg3 arg4 harg4 arg5 harg5 hc0 hc1 x0 x1 xs = k0_pay2 i x0 x1 xs := by
  unfold outLast
  rw [View.read_writes_eq_canon _ _ _ (coverOutLast c i arg2 harg2 arg3 harg3 arg4 harg4 arg5 harg5 hc0 hc1 x0 x1 xs)]
  unfold runLast
  dsimp only
  sl_unfold_words
  rw [View.canon_unit_zero hz, View.readCov_unit_zero (S := S1024x1) _ hz]
  simp only [View.readAt_eq_ld, harg2.read_unread, harg3.read_unread, harg5.read_unread, View.ld_unit_zero (S := S1024x768) hz,
    View.ld_unit_zero (S := S1024x1) hz]

end Cert.KernelIdeal.Hand

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.Consts.lean ====
/-
  The float constants the two programs spell, as the extended reals their patterns denote: 0.5 (the temperature, which the
  reference divides by), 2.0 (its reciprocal, which the kernel multiplies by), 1.0 (the reference's mask off the diagonal)
  and the row norm's floor 1e-12, of which only that it is a positive real number matters.
-/
import Idealize.ShloMosaic.PureOps.Ideal

noncomputable section

namespace Cert.Consts

open Idealize.ShloMosaic

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- The floor under a row's norm is a positive real number. -/
theorem ofBits_floor_pos : ∃ e : ℝ, 0 < e ∧ Ideal.ofBits .f32 0x2B8CBCCC#32 = (e : EReal) := by
  refine ⟨_, ?_, by simp [Ideal.ofBits, Ideal.ieee, -EReal.coe_mul]; rfl⟩
  positivity

end Cert.Consts

end
-- ==== Proof.KI.Payload.lean ====
/-
  The kernel's arithmetic at one entry, on the extended reals.

  At a grid point (i, j) the body adds to row p of the accumulator column the sum over the 1024 columns q of the block
  of `exp(2 · ⟨x₀ row p, x₁ row q⟩)`, except that an entry on the diagonal of the whole similarity matrix — global row
  1024·i + p equal to global column 1024·j + q — contributes zero. The comparison is made on 32-bit words; the global
  indices are below 8192, so equality of the words is equality of the numbers.
-/
import proofs.«177341_j9079560864194_1_alg».proof.Proof.Gen.KernelIdeal.Skeleton
import proofs.«177341_j9079560864194_1_alg».proof.Proof.LibRowOps
import proofs.«177341_j9079560864194_1_alg».proof.Proof.Consts
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx

/-- A tile offset plus an index inside the tile, as a 32-bit word, is that number. -/
theorem word_toNat (a p : ℕ) (ha : a < 8) (hp : p < 1024) :
    (BitVec.ofNat 32 a * 1024#32 + BitVec.ofNat 32 (0 * 1024 + p)).toNat = a * 1024 + p := by
  have h32 : (2 : ℕ) ^ 32 = 4294967296 := by norm_num
  rw [BitVec.toNat_add, BitVec.toNat_mul, BitVec.toNat_ofNat, BitVec.toNat_ofNat, BitVec.toNat_ofNat, h32]
  omega

/-- A comparison for equality answers one exactly when the words are equal. -/
theorem cmpi_eq_one_iff {w : ℕ} (x y : BitVec w) : IntOp.cmpi .eq x y = 1 ↔ x = y := by
  show BitVec.ofBool (x == y) = 1 ↔ x = y
  by_cases h : x = y
  · subst h; simp
  · have hb : (x == y) = false := beq_eq_false_iff_ne.mpr h
    rw [hb]; simp [h]

/-- The body's test "global row = global column", made on words, decides the equation of the numbers. -/
theorem select_diag {α : Type} (a b p q : ℕ) (ha : a < 8) (hb : b < 8) (hp : p < 1024) (hq : q < 1024) (u v : α) :
    Scalar.select (IntOp.cmpi .eq (IntOp.addi (Scalar.muli (BitVec.ofNat 32 a) 1024#32) (BitVec.ofNat 32 (0 * 1024 + p)))
      (IntOp.addi (Scalar.muli (BitVec.ofNat 32 b) 1024#32) (BitVec.ofNat 32 (0 * 1024 + q)))) u v
      = if a * 1024 + p = b * 1024 + q then u else v := by
  show Scalar.select (IntOp.cmpi .eq (BitVec.ofNat 32 a * 1024#32 + BitVec.ofNat 32 (0 * 1024 + p))
      (BitVec.ofNat 32 b * 1024#32 + BitVec.ofNat 32 (0 * 1024 + q))) u v = _
  unfold Scalar.select
  by_cases h : a * 1024 + p = b * 1024 + q
  · have e : BitVec.ofNat 32 a * 1024#32 + BitVec.ofNat 32 (0 * 1024 + p) = BitVec.ofNat 32 b * 1024#32 + BitVec.ofNat 32 (0 * 1024 + q) :=
      BitVec.eq_of_toNat_eq (by rw [word_toNat a p ha hp, word_toNat b q hb hq]; exact h)
    rw [if_pos h, if_pos ((cmpi_eq_one_iff _ _).mpr e)]
  · have ne : BitVec.ofNat 32 a * 1024#32 + BitVec.ofNat 32 (0 * 1024 + p) ≠ BitVec.ofNat 32 b * 1024#32 + BitVec.ofNat 32 (0 * 1024 + q) :=
      fun e => h (by have := congrArg BitVec.toNat e; rwa [word_toNat a p ha hp, word_toNat b q hb hq] at this)
    rw [if_neg h, if_neg (fun hc => ne ((cmpi_eq_one_iff _ _).mp hc))]

/-- One entry's weight: zero on the diagonal of the whole similarity matrix, else the exponential of twice the inner
    product of the two rows. -/
def weight (x0 x1 : Vec Ideal S1024x768 .bf16) (r c : ℕ) (p q : Fin 1024) : EReal :=
  if r = c then 0 else Ideal.exp ((∑ k : Fin 768, x0 (ix2 p k) * x1 (ix2 q k)) * ((2 : ℝ) : EReal))

/-- The reset value of the accumulator is zero. -/
theorem pay1_apply (y : S1024x1.Idx) : k0_pay1 (F := Ideal) y = 0 := by
  unfold k0_pay1
  rw [shapeCast_self]
  exact Ideal.ofBits_zero_f32

/-- The accumulator after a point: what it held, plus the block's masked row sums. -/
theorem pay2_apply (i : grid0.Coords) (x0 x1 : Vec Ideal S1024x768 .bf16) (acc : Vec Ideal S1024x1 .f32) (p : Fin 1024) :
    k0_pay2 (F := Ideal) i x0 x1 acc (ix2 p (0 : Fin 1))
      = acc (ix2 p (0 : Fin 1)) + ∑ q : Fin 1024, weight x0 x1 ((i 0).val * 1024 + p.val) ((i 1).val * 1024 + q.val) p q := by
  unfold k0_pay2
  dsimp only
  rw [shapeCast_self, shapeCast_self, shapeCast_self]
  rw [addf_apply, Cert.RowOps.shapeCast_a_a1_apply]
  refine congrArg (fun z => acc (ix2 p (0 : Fin 1)) + z)
    ((Cert.RowOps.rowSum_apply _ 0x00000000#32 reduces_S1024x1024_S1024 (.inl rfl) rfl p).trans ?_)
  refine Finset.sum_congr rfl fun q _ => ?_
  rw [select_apply]
  refine (select_diag (i 0).val (i 1).val p.val q.val (i 0).isLt (i 1).isLt p.isLt q.isLt _ _).trans ?_
  unfold weight
  by_cases h : (i 0).val * 1024 + p.val = (i 1).val * 1024 + q.val
  · rw [if_pos h, if_pos h]; exact Ideal.ofBits_zero_f32
  · rw [if_neg h, if_neg h]
    show Ideal.exp ((matmul (F := Ideal) dot_S1024x768_S1024x768_S1024x1024_1_1_0_0_n_n none x0 x1 (constant (F := Ideal) S1024x1024 .f32 0x00000000#32)) (ix2 p q)
        * Ideal.ofBits .f32 0x40000000#32) = _
    rw [Cert.Consts.ofBits_two, Cert.RowOps.matmul_nt_apply dot_S1024x768_S1024x768_S1024x1024_1_1_0_0_n_n none rfl rfl
      (fun _ _ => rfl) (fun _ _ => rfl) (fun _ _ => rfl) (fun _ _ => rfl)]

end Cert.KernelIdeal.Val

end
-- ==== Proof.KI.Value.lean ====
/-
  The kernel's output array, in closed form.

  Write X for the 8192×768 matrix the region finds in `main_v11` and w(r, c) for the masked weight of column c in row r:
  zero when r = c, else exp(2 · ⟨X r, X c⟩). At grid point t = 8·i + j the body adds to row p of the accumulator the sum of
  w(1024·i + p, 1024·j + q) over the 1024 columns q of block j, starting from zero at j = 0; so after the point the
  accumulator's row p holds the sum of w(1024·i + p, c) over the columns c < 1024·(j + 1) (by induction on the point), and
  at j = 7, when the column is stored to the output window and written back to rows 1024·i … of the result, it holds the
  sum over ALL 8192 columns. The write-backs cover the result array, which therefore ends at r ↦ Σ_c w(r, c).
-/
import proofs.«177341_j9079560864194_1_alg».proof.Proof.KI.Run
import proofs.«177341_j9079560864194_1_alg».proof.Proof.KI.Pieces
import proofs.«177341_j9079560864194_1_alg».proof.Proof.KI.Payload

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The matrix of unit rows as the region finds it. -/
abbrev X (c : Dev nD) : S8192x768.Idx → EReal := V m c main_v11

/-- Row `r` of a matrix, at any natural number (zero past the last row: never consulted). -/
def rowAt (Xm : S8192x768.Idx → EReal) (r : ℕ) (k : Fin 768) : EReal := if h : r < 8192 then Xm (ix2 ⟨r, h⟩ k) else 0

/-- The masked weight of column `c` in row `r`. -/
def wAt (Xm : S8192x768.Idx → EReal) (r c : ℕ) : EReal :=
  if r = c then 0 else Ideal.exp ((∑ k : Fin 768, rowAt Xm r k * rowAt Xm c k) * ((2 : ℝ) : EReal))

/-- Row `1024·i + p`'s weights summed over the first `n` column blocks. -/
def partialSum (Xm : S8192x768.Idx → EReal) (i n : ℕ) (p : Fin 1024) : EReal :=
  ∑ j ∈ Finset.range n, ∑ q : Fin 1024, wAt Xm (1024 * i + p.val) (1024 * j + q.val)

/-- The denominators: each row's weights summed over all columns. -/
def denom (Xm : S8192x768.Idx → EReal) : S8192x1.Idx → EReal := fun i => ∑ c : Fin 8192, wAt Xm (i 0).val c.val

/-! ## The grid and the windows' blocks -/

theorem coords_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

theorem index_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0)

/-- The row-tile window's block at point t is rows 1024·(t / 8) … of the matrix. -/
theorem iblkRow_apply (c : Dev nD) (t : Fin cfg0.N) (p : Fin 1024) (k : Fin 768) :
    (iblk m c 0 t : Vec Ideal S1024x768 .bf16) (ix2 p k) = rowAt (X m c) (1024 * (t.val / 8) + p.val) k := by
  have hN : t.val < 64 := lt_of_lt_of_eq t.isLt (show cfg0.N = 64 from N_0)
  have hr : 1024 * (t.val / 8) + p.val < 8192 := by have := p.isLt; omega
  obtain ⟨e0, e1, -⟩ := index_facts t
  unfold rowAt; rw [dif_pos hr]
  unfold iblk
  rw [View.read_apply]
  show V m c main_v11 _ = V m c main_v11 _
  congr 1
  funext a; apply Fin.ext
  match a with
  | ⟨0, _⟩ => show win0_0.index t (0 : Fin 2) * 1024 + 1 * p.val = 1024 * (t.val / 8) + p.val; rw [e0]; omega
  | ⟨1, _⟩ => show win0_0.index t (1 : Fin 2) * 768 + 1 * k.val = k.val; rw [e1]; omega

/-- The column-tile window's block at point t is rows 1024·(t % 8) … of the same matrix. -/
theorem iblkCol_apply (c : Dev nD) (t : Fin cfg0.N) (q : Fin 1024) (k : Fin 768) :
    (iblk m c 1 t : Vec Ideal S1024x768 .bf16) (ix2 q k) = rowAt (X m c) (1024 * (t.val % 8) + q.val) k := by
  have hr : 1024 * (t.val % 8) + q.val < 8192 := by have := q.isLt; omega
  obtain ⟨-, -, e0, e1, -⟩ := index_facts t
  unfold rowAt; rw [dif_pos hr]
  unfold iblk
  rw [View.read_apply]
  show V m c main_v11 _ = V m c main_v11 _
  congr 1
  funext a; apply Fin.ext
  match a with
  | ⟨0, _⟩ => show win0_1.index t (0 : Fin 2) * 1024 + 1 * q.val = 1024 * (t.val % 8) + q.val; rw [e0]; omega
  | ⟨1, _⟩ => show win0_1.index t (1 : Fin 2) * 768 + 1 * k.val = k.val; rw [e1]; omega

/-! ## One point's step -/

/-- At point t the body adds to row p of the accumulator the weights of row 1024·(t / 8) + p over column block t % 8. -/
theorem step (c : Dev nD) (t : Fin cfg0.N) (acc : Vec Ideal S1024x1 .f32) (p : Fin 1024) :
    k0_pay2 (F := Ideal) (grid0.coords t) (iblk m c 0 t) (iblk m c 1 t) acc (ix2 p (0 : Fin 1))
      = acc (ix2 p (0 : Fin 1)) + ∑ q : Fin 1024, wAt (X m c) (1024 * (t.val / 8) + p.val) (1024 * (t.val % 8) + q.val) := by
  obtain ⟨c0, c1⟩ := coords_facts t
  rw [pay2_apply]
  refine congrArg (fun z => acc (ix2 p (0 : Fin 1)) + z) (Finset.sum_congr rfl fun q _ => ?_)
  unfold weight wAt
  rw [c0, c1, Nat.mul_comm (t.val / 8) 1024, Nat.mul_comm (t.val % 8) 1024]
  refine if_congr Iff.rfl rfl ?_
  refine congrArg (fun z => Ideal.exp (z * ((2 : ℝ) : EReal))) (Finset.sum_congr rfl fun k _ => ?_)
  rw [iblkRow_apply, iblkCol_apply]

theorem partialSum_succ (Xm : S8192x768.Idx → EReal) (i n : ℕ) (p : Fin 1024) :
    partialSum Xm i (n + 1) p = partialSum Xm i n p + ∑ q : Fin 1024, wAt Xm (1024 * i + p.val) (1024 * n + q.val) := by
  unfold partialSum; rw [Finset.sum_range_succ]

/-! ## The accumulator after each point -/

/-- After point n the accumulator's row p holds the weights of row 1024·(n / 8) + p over the column blocks 0 … n % 8. -/
theorem acc_closed (c : Dev nD) : ∀ (n : ℕ) (hn : n < cfg0.N) (p : Fin 1024),
    (stateAt m c n hn).2 (ix2 p (0 : Fin 1)) = partialSum (X m c) (n / 8) (n % 8 + 1) p
  | 0, hn, p => by
    have e := stateAt_first m c ⟨0, hn⟩ (Nat.zero_mod 8) (by show ¬(0 % 8 = 7); decide)
    rw [show stateAt m c 0 hn = _ from e]
    dsimp only
    rw [accFirst_eq, step, pay1_apply, zero_add]
    show _ = partialSum (X m c) 0 1 p
    rw [partialSum_succ]; unfold partialSum; rw [Finset.sum_range_zero, zero_add]
    show ∑ q : Fin 1024, wAt (X m c) (1024 * (0 / 8) + p.val) (1024 * (0 % 8) + q.val) = _
    rw [Nat.zero_div, Nat.zero_mod]
  | n + 1, hn, p => by
    have hN : n + 1 < 64 := lt_of_lt_of_eq hn (show cfg0.N = 64 from N_0)
    by_cases h0 : (n + 1) % 8 = 0
    · have h1 : ¬(n + 1) % 8 = 7 := by omega
      have e := stateAt_first m c ⟨n + 1, hn⟩ h0 h1
      rw [show stateAt m c (n + 1) hn = _ from e]
      dsimp only
      rw [accFirst_eq, step, pay1_apply, zero_add, h0, partialSum_succ]
      unfold partialSum; rw [Finset.sum_range_zero, zero_add]
    · have ih := acc_closed c n (Nat.lt_of_succ_lt hn) p
      have hd : (n + 1) / 8 = n / 8 := by omega
      have hm : (n + 1) % 8 = n % 8 + 1 := by omega
      by_cases h1 : (n + 1) % 8 = 7
      · have e := stateAt_last m c ⟨n + 1, hn⟩ h0 h1
        rw [show stateAt m c (n + 1) hn = _ from e]
        dsimp only
        rw [accLast_eq, step]
        dsimp only
        rw [partialSum_succ (X m c) ((n + 1) / 8) ((n + 1) % 8) p, hd, hm]
        exact congrArg (fun z => z + ∑ q : Fin 1024, wAt (X m c) (1024 * (n / 8) + p.val) (1024 * (n % 8 + 1) + q.val)) ih
      · have e := stateAt_mid m c ⟨n + 1, hn⟩ h0 h1
        rw [show stateAt m c (n + 1) hn = _ from e]
        dsimp only
        rw [accMid_eq, step]
        dsimp only
        rw [partialSum_succ (X m c) ((n + 1) / 8) ((n + 1) % 8) p, hd, hm]
        exact congrArg (fun z => z + ∑ q : Fin 1024, wAt (X m c) (1024 * (n / 8) + p.val) (1024 * (n % 8 + 1) + q.val)) ih

/-- At the last column block the output window's buffer is stored the same finished column. -/
theorem out_closed (c : Dev nD) (n : ℕ) (hn : n < cfg0.N) (h7 : n % 8 = 7) (p : Fin 1024) :
    (stateAt m c n hn).1 (ix2 p (0 : Fin 1)) = partialSum (X m c) (n / 8) 8 p := by
  obtain ⟨k, rfl⟩ : ∃ k, n = k + 1 := ⟨n - 1, by omega⟩
  have h0 : ¬(k + 1) % 8 = 0 := by omega
  have ih := acc_closed m c k (Nat.lt_of_succ_lt hn) p
  have hd : (k + 1) / 8 = k / 8 := by omega
  have hm : k % 8 + 1 = 7 := by omega
  have e := stateAt_last m c ⟨k + 1, hn⟩ h0 h7
  rw [show stateAt m c (k + 1) hn = _ from e]
  dsimp only
  rw [outLast_eq, step]
  dsimp only
  rw [h7, partialSum_succ (X m c) ((k + 1) / 8) 7 p, hd, ← hm]
  exact congrArg (fun z => z + ∑ q : Fin 1024, wAt (X m c) (1024 * (k / 8) + p.val) (1024 * (k % 8 + 1) + q.val)) ih

/-- Eight column blocks of 1024 are all 8192 columns. -/
theorem partialSum_eight (Xm : S8192x768.Idx → EReal) (i : ℕ) (p : Fin 1024) :
    partialSum Xm i 8 p = ∑ c : Fin 8192, wAt Xm (1024 * i + p.val) c.val := by
  unfold partialSum
  rw [Finset.sum_range (fun j => ∑ q : Fin 1024, wAt Xm (1024 * i + p.val) (1024 * j + q.val)), ← Fintype.sum_prod_type',
    ← Equiv.sum_comp (finProdFinEquiv : Fin 8 × Fin 1024 ≃ Fin 8192) (fun c => wAt Xm (1024 * i + p.val) c.val)]
  refine Finset.sum_congr rfl fun x _ => ?_
  congr 1
  show 1024 * x.1.val + x.2.val = (finProdFinEquiv x).val
  rw [finProdFinEquiv_apply_val]; omega

/-! ## The write-backs and the final array -/

/-- What point t writes back is block t of the denominators. -/
theorem flushedOut_eq (c : Dev nD) (t : Fin cfg0.N) (hf : (cfg0.win 2).flush t = true) :
    (dats m 0 c).flushed 2 t = ((cfg0.win 2).blk t).view.read (Elt Ideal) (denom (X m c)) := by
  have h7 : t.val % 8 = 7 := (flush0_2 t).mp hf
  obtain ⟨-, -, -, -, e0, e1⟩ := index_facts t
  show (cfg0.win 2).cut (grid0.coords t) ((dats m 0 c).after 2 t) = _
  rw [afterOut]
  funext y
  obtain ⟨p, u, rfl⟩ : ∃ (p : Fin 1024) (u : Fin 1), y = ix2 p u := ⟨y 0, y 1, eq_ix2 y⟩
  obtain rfl : u = 0 := Subsingleton.elim _ _
  show (stateAt m c t.val t.isLt).1 (ix2 p (0 : Fin 1)) = denom (X m c) (((cfg0.win 2).blk t).view.emb (ix2 p (0 : Fin 1)))
  rw [out_closed m c t.val t.isLt h7 p, partialSum_eight]
  unfold denom
  refine Finset.sum_congr rfl fun cc _ => ?_
  congr 1
  show 1024 * (t.val / 8) + p.val = win0_2.index t (0 : Fin 2) * 1024 + 1 * p.val
  rw [e0]; omega

theorem mem_blkOut (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v12).slice (win0_2.rect t)).set ↔ _
  rw [View.set_slice_whole, Rect.mem_set_unit]
  exact Iff.rfl

/-- Every row of the result is in the block some write-back covers. -/
theorem coverOut (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_0
  refine ⟨⟨8 * ((i 0).val / 1024) + 7, by rw [hN]; omega⟩, (flush0_2 _).mpr (by show (8 * ((i 0).val / 1024) + 7) % 8 = 7; omega), ?_⟩
  rw [mem_blkOut]
  obtain ⟨-, -, -, -, e0, e1⟩ := index_facts ⟨8 * ((i 0).val / 1024) + 7, by rw [hN]; omega⟩
  intro a
  match a with
  | ⟨0, _⟩ =>
    show win0_2.index _ (0 : Fin 2) * 1024 ≤ (i 0).val ∧ (i 0).val < win0_2.index _ (0 : Fin 2) * 1024 + 1024
    rw [e0]; show (8 * ((i 0).val / 1024) + 7) / 8 * 1024 ≤ (i 0).val ∧ (i 0).val < (8 * ((i 0).val / 1024) + 7) / 8 * 1024 + 1024
    omega
  | ⟨1, _⟩ =>
    show win0_2.index _ (1 : Fin 2) * 1 ≤ (i 1).val ∧ (i 1).val < win0_2.index _ (1 : Fin 2) * 1 + 1
    rw [e1]; omega

/-- THE OUTPUT ARRAY after the region: the denominators of the matrix the region found. -/
theorem finalOut (c : Dev nD) : (dats m 0 c).arrAt 2 cfg0.N = denom (X m c) :=
  (dats m 0 c).arrAt_eq_of_cover 2 (denom (X m c)) (flushedOut_eq m c) coverOut

end Cert.KernelIdeal.Val

end
-- ==== Proof.KI.Host.lean ====
/-
  The host operations around the kernel region, named.

  Before the region @main divides each row of an argument by the larger of its Euclidean norm and a small floor (`unitRows`),
  stacks the two normalised arguments into the 8192×768 matrix and hands it to the kernel (a change of float format, the
  identity on the extended reals). After the region it takes, row by row, the logarithm of the kernel's denominators minus
  the positive-pair similarity divided by the temperature ½, and averages the 8192 rows (`meanOf`). Here: those functions,
  and that the region-entry buffers and the program's result are them.
-/
import proofs.«177341_j9079560864194_1_alg».proof.Proof.KI.Value
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

open Idealize.ShloMosaic.StableHlo

/-- An argument's rows, each divided by the larger of its norm and the floor. -/
def unitRows (a : (⟨S4096x768, .f32⟩ : BufTy).Contents (Elt Ideal)) : (⟨S4096x768, .f32⟩ : BufTy).Contents (Elt Ideal) :=
  Host.divf (F := Ideal) a
    (broadcastInDim S4096x768 ![0, 1] bcast_S4096x1_S4096x768_0_1
      (maximumf (F := Ideal)
        (Host.sqrt (F := Ideal) (broadcastInDim S4096x1 ![0] bcast_S4096_S4096x1_0
          (Host.reduceAdd (F := Ideal) (mulf (F := Ideal) a a) (constant (F := Ideal) S_ .f32 0x00000000#32) reducesTo_S4096x768_S4096_d1 h_S_)))
        (broadcastInDim S4096x1 ![] bcast_S_S4096x1 (constant (F := Ideal) S_ .f32 0x2B8CBCCC#32))))

/-- The two normalised arguments stacked. -/
def stacked (p q : (⟨S4096x768, .f32⟩ : BufTy).Contents (Elt Ideal)) : (⟨S8192x768, .f32⟩ : BufTy).Contents (Elt Ideal) :=
  concatenate S8192x768 0 [⟨S4096x768, p⟩, ⟨S4096x768, q⟩] concatenates_S4096x768_S4096x768_S8192x768_d0

/-- The mean over the 8192 rows. -/
def meanOf (L : (⟨S8192, .f32⟩ : BufTy).Contents (Elt Ideal)) : (⟨S_, .f32⟩ : BufTy).Contents (Elt Ideal) :=
  Host.divf (F := Ideal) (Host.reduceAdd (F := Ideal) L (constant (F := Ideal) S_ .f32 0x00000000#32) reducesTo_S8192_S_d0 h_S_)
    (constant (F := Ideal) S_ .f32 0x46000000#32)

/-- Row by row: the positive-pair similarity of the two normalised arguments, for both halves of the rows. -/
def positives (p q : (⟨S4096x768, .f32⟩ : BufTy).Contents (Elt Ideal)) : (⟨S8192, .f32⟩ : BufTy).Contents (Elt Ideal) :=
  concatenate S8192 0
    [⟨S4096, Host.reduceAdd (F := Ideal) (mulf (F := Ideal) p q) (constant (F := Ideal) S_ .f32 0x00000000#32) reducesTo_S4096x768_S4096_d1 h_S_⟩,
     ⟨S4096, Host.reduceAdd (F := Ideal) (mulf (F := Ideal) p q) (constant (F := Ideal) S_ .f32 0x00000000#32) reducesTo_S4096x768_S4096_d1 h_S_⟩]
    concatenates_S4096_S4096_S8192_d0

/-- The kernel program's rows of the loss: log of the denominator minus the positive-pair similarity over ½. -/
def rowLoss (D : (⟨S8192x1, .f32⟩ : BufTy).Contents (Elt Ideal)) (p q : (⟨S4096x768, .f32⟩ : BufTy).Contents (Elt Ideal)) :
    (⟨S8192, .f32⟩ : BufTy).Contents (Elt Ideal) :=
  subf (F := Ideal) (Host.log (F := Ideal) (shapeCast S8192 D shapeCasts_S8192x1_S8192))
    (Host.divf (F := Ideal) (positives p q) (broadcastInDim S8192 ![] bcast_S_S8192 (constant (F := Ideal) S_ .f32 0x3F000000#32)))

/-! ## The region-entry buffers -/

theorem V_p (c : Dev nD) : V m c main_v4 = unitRows (m ((c : Thread nD τ).loc main_arg0)) := by
  dsimp only [V, V0]
  simp only [hostOps0, hostOps0_1, hostOps0_2, hostOps0_3, List.flatten_cons, List.flatten_nil, List.append_nil, List.cons_append, List.nil_append]
  after_results
  rfl

theorem V_q (c : Dev nD) : V m c main_v9 = unitRows (m ((c : Thread nD τ).loc main_arg1)) := by
  dsimp only [V, V0]
  simp only [hostOps0, hostOps0_1, hostOps0_2, hostOps0_3, List.flatten_cons, List.flatten_nil, List.append_nil, List.cons_append, List.nil_append]
  after_results
  rfl

/-- The matrix the kernel is handed: the stacked normalised arguments (its change of format is the identity). -/
theorem X_eq (c : Dev nD) : X m c = stacked (unitRows (m ((c : Thread nD τ).loc main_arg0))) (unitRows (m ((c : Thread nD τ).loc main_arg1))) := by
  show V m c main_v11 = _
  dsimp only [V, V0]
  simp only [hostOps0, hostOps0_1, hostOps0_2, hostOps0_3, List.flatten_cons, List.flatten_nil, List.append_nil, List.cons_append, List.nil_append]
  after_results
  rfl

/-! ## The program's result -/

/-- The kernel program's result: the mean of its rows of the loss, over the denominators the kernel left. -/
theorem result_eq (c : Dev nD) :
    StableHlo.after (List.flatten [hostOps1]) (Wf m c) (Proc.devRef .tc main_v22)
      = meanOf (rowLoss (denom (X m c)) (unitRows (m ((c : Thread nD τ).loc main_arg0))) (unitRows (m ((c : Thread nD τ).loc main_arg1)))) := by
  have e4 : Wf m c (Proc.devRef .tc main_v4) = unitRows (m ((c : Thread nD τ).loc main_arg0)) :=
    (Wf_of_ne m c main_v4 (by decide)).trans (V_p m c)
  have e9 : Wf m c (Proc.devRef .tc main_v9) = unitRows (m ((c : Thread nD τ).loc main_arg1)) :=
    (Wf_of_ne m c main_v9 (by decide)).trans (V_q m c)
  have e12 : Wf m c (Proc.devRef .tc main_v12) = denom (X m c) := (Wf_out m c).trans (finalOut m c)
  simp only [hostOps1, List.flatten_cons, List.flatten_nil, List.append_nil]
  after_results
  rw [e4, e9, e12]
  rfl

end Cert.KernelIdeal.Val

end
-- ==== Proof.LibIsReal.lean ====
/-
  Extended reals that are real numbers.

  On the extended reals the field laws (distributivity, cancelling, moving a factor across a sum) fail at the
  infinities, so a value proof that needs one first shows its operands are real. `IsReal a` says `a` is the image of a
  real number; it is closed under sums, differences, products, finite sums and quotients by a nonzero real, holds of
  every integer-valued float, and holds of every IEEE word whose exponent field is not all ones (a zero, a subnormal or
  a normal number: everything but the infinities and the NaN patterns). With operands real, an identity of the real
  field transfers by pushing the coercion out (`← EReal.coe_add`, `← EReal.coe_mul`, …) and `ring`.
-/
import Idealize.ShloMosaic.PureOps.Ideal

noncomputable section

namespace Cert

open Idealize.ShloMosaic

/-- `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih
/-- A quotient by a nonzero real. -/
theorem IsReal.div {a : EReal} (ha : IsReal a) {y : ℝ} (hy : y ≠ 0) : IsReal (Ideal.div a (y : EReal)) := by
  rw [Ideal.div_coe hy]; exact ha.mul (IsReal.coe _)

/-- A word of an IEEE format with `e` exponent bits and `mm` fraction bits whose exponent field is not all ones denotes
    a real number (for a literal word the side condition is decided: `isReal_ieee 8 23 _ (by decide)`). -/
theorem isReal_ieee (e mm : Nat) {w : Nat} (b : BitVec w) (h : (b.extractLsb' mm e).toNat ≠ 2 ^ e - 1) :
    IsReal (Ideal.ieee e mm b) := by
  unfold Ideal.ieee
  simp only []
  rw [if_neg h]
  split <;> exact ⟨_, rfl⟩

end Cert

end
-- ==== Proof.Loss.lean ====
/-
  The law that joins the two loss formulas, one row at a time.

  With `a` the row's positive-pair similarity and `d` its denominator (a sum of exponentials, so a positive real), the
  kernel's `log d − a / ½` and the reference's `−log (exp (a / ½) / d)` are the same real number: the logarithm of a
  quotient is the difference of the logarithms, and `log ∘ exp` is the identity. On the extended reals the identity
  needs `a` real and `d` a positive real (at an infinity the two sides are different junk), which is where the
  finiteness of the inputs is used.
-/
import Mathlib
import Idealize.ShloMosaic.PureOps.Ideal

noncomputable section

namespace Cert.Loss

open Idealize.ShloMosaic

/-- One row's loss, the kernel's way and the reference's. -/
theorem row_law (a d : ℝ) (hd : 0 < d) :
    Ideal.log (d : EReal) - Ideal.div (a : EReal) ((1 / 2 : ℝ) : EReal)
      = -(Ideal.log (Ideal.div (Ideal.exp (Ideal.div (a : EReal) ((1 / 2 : ℝ) : EReal))) (d : EReal))) := by
  rw [Ideal.div_coe (by norm_num : (1 / 2 : ℝ) ≠ 0), Ideal.div_coe hd.ne', ← EReal.coe_mul, Ideal.exp_coe, ← EReal.coe_mul,
    Ideal.log_coe, Ideal.log_coe, if_neg (not_le.mpr hd),
    if_neg (not_le.mpr (mul_pos (Real.exp_pos _) (by positivity))), ← EReal.coe_sub, ← EReal.coe_neg]
  congr 1
  rw [Real.log_mul (Real.exp_pos _).ne' (by positivity), Real.log_exp, one_div d, Real.log_inv]
  ring

/-- Twice a real is its quotient by one half: the kernel's scale of the similarities and the reference's. -/
theorem mul_two_eq_div_half (x : EReal) : x * ((2 : ℝ) : EReal) = Ideal.div x ((1 / 2 : ℝ) : EReal) := by
  rw [Ideal.div_coe (by norm_num : (1 / 2 : ℝ) ≠ 0)]; norm_num

end Cert.Loss

end
-- ==== Proof.KI.Rows.lean ====
/-
  The kernel program's rows of the loss, read on the extended reals, and the one place finiteness is used.

  With P, Q the two normalised arguments and X their stack, row r of the loss is log(Σ_c w(r, c)) − a_r / ½, where a_r is the
  inner product of row r' of P and row r' of Q (r' = r mod 4096). The reference has −log(exp(a_r / ½) / Σ_c w(r, c)) instead;
  the two agree when a_r is real and the denominator is a positive real (`Loss.row_law`). Both hold when the arguments'
  entries are real numbers: a normalised entry is a real divided by the larger of a real square root and the positive floor,
  so real; the inner products are then real; each weight is zero or the exponential of a real, and every row has a column
  other than its own, so the denominator is a positive real.
-/
import proofs.«177341_j9079560864194_1_alg».proof.Proof.KI.Host
import proofs.«177341_j9079560864194_1_alg».proof.Proof.LibIsReal
import proofs.«177341_j9079560864194_1_alg».proof.Proof.Loss
import proofs.«177341_j9079560864194_1_alg».proof.Proof.Consts
import Idealize.ShloMosaic.Lib.IdealHost

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

open Cert (IsReal)

/-! ## Sums of real numbers -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) :=
  (EReal.coe_strictMono.monotone.map_max).symm

/-! ## The stacked matrix, row by row -/

theorem stacked_top (p q : (⟨S4096x768, .f32⟩ : BufTy).Contents (Elt Ideal)) (r : ℕ) (h : r < 4096) (k : Fin 768) :
    rowAt (stacked p q) r k = p (ix2 (⟨r, h⟩ : Fin 4096) k) := by
  have h2 : r < 8192 := by omega
  unfold rowAt; rw [dif_pos h2]
  unfold stacked
  exact concatenate_pair_apply_left (0 : Fin 2) p q concatenates_S4096x768_S4096x768_S8192x768_d0 (ix2 (⟨r, h2⟩ : Fin 8192) k) rfl
    (ix2 (⟨r, h⟩ : Fin 4096) k) (fun b => match b with | ⟨0, _⟩ => rfl | ⟨1, _⟩ => rfl)

theorem stacked_bot (p q : (⟨S4096x768, .f32⟩ : BufTy).Contents (Elt Ideal)) (r : ℕ) (h1 : 4096 ≤ r) (h2 : r < 8192) (h3 : r - 4096 < 4096)
    (k : Fin 768) : rowAt (stacked p q) r k = q (ix2 (⟨r - 4096, h3⟩ : Fin 4096) k) := by
  unfold rowAt; rw [dif_pos h2]
  unfold stacked
  exact concatenate_pair_apply_right (0 : Fin 2) p q concatenates_S4096x768_S4096x768_S8192x768_d0 (ix2 (⟨r, h2⟩ : Fin 8192) k) rfl rfl
    (ix2 (⟨r - 4096, h3⟩ : Fin 4096) k) (fun b hb => by
      have hlt : b.val < 2 := b.isLt
      have hne : b.val ≠ 0 := fun e => hb (Fin.ext e)
      obtain rfl : b = (1 : Fin 2) := Fin.ext (by show b.val = 1; omega)
      rfl)
    (Nat.sub_add_cancel h1)

/-! ## Host sums and the normalisation at an entry -/

/-- The host's sum along the rows of a 4096×768 array from zero. -/
theorem rowSumHost (y : (⟨S4096x768, .f32⟩ : BufTy).Contents (Elt Ideal)) (i : Fin 4096) :
    Host.reduceAdd (F := Ideal) y (constant (F := Ideal) S_ .f32 0x00000000#32) reducesTo_S4096x768_S4096_d1 h_S_ (ix1 i)
      = ∑ k : Fin 768, y (ix2 i k) := by
  simp only [Host.reduceAdd, Ideal.hostReduceAdd_def]
  rw [Ideal.hostReduceAdd_single reducesTo_S4096x768_S4096_d1 (by decide)]
  rw [show (constant (F := Ideal) S_ .f32 0x00000000#32) (Shape.Idx.first h_S_) = 0 from Ideal.ofBits_zero_f32, zero_add]
  exact Finset.sum_congr rfl fun k _ => congrArg y (funext fun a => Fin.ext (by match a with | ⟨0, _⟩ => rfl | ⟨1, _⟩ => rfl))

/-- An entry of the normalised argument: the entry over the larger of its row's norm and the floor. -/
theorem unitRows_apply (a : (⟨S4096x768, .f32⟩ : BufTy).Contents (Elt Ideal)) (i : Fin 4096) (k : Fin 768) :
    unitRows a (ix2 i k)
      = Ideal.div (a (ix2 i k)) (max (Ideal.sqrt (∑ k' : Fin 768, a (ix2 i k') * a (ix2 i k'))) (Ideal.ofBits .f32 0x2B8CBCCC#32)) := by
  unfold unitRows
  refine congrArg (Ideal.div (a (ix2 i k))) ?_
  rw [broadcastInDim_apply ![0, 1] bcast_S4096x1_S4096x768_0_1 _ (ix2 i k) (ix2 i (0 : Fin 1))
    (fun b => match b with | ⟨0, _⟩ => rfl | ⟨1, _⟩ => rfl)]
  refine congrArg₂ max (congrArg Ideal.sqrt ?_) ?_
  · rw [broadcastInDim_apply ![0] bcast_S4096_S4096x1_0 _ (ix2 i (0 : Fin 1)) (ix1 i) (fun b => match b with | ⟨0, _⟩ => rfl)]
    exact rowSumHost (mulf (F := Ideal) a a) i
  · exact broadcastInDim_scalar_apply bcast_S_S4096x1 _ _

/-! ## Real entries -/

/-- A normalised entry of an array of real numbers is a real number. -/
theorem unitRows_isReal (a : (⟨S4096x768, .f32⟩ : BufTy).Contents (Elt Ideal)) (ha : ∀ j, IsReal (a j)) (j : S4096x768.Idx) :
    IsReal (unitRows a j) := by
  obtain ⟨i, k, rfl⟩ : ∃ (i : Fin 4096) (k : Fin 768), j = ix2 i k := ⟨j 0, j 1, eq_ix2 j⟩
  rw [unitRows_apply]
  choose x hx using fun k' : Fin 768 => ha (ix2 i k')
  obtain ⟨e, he, hfl⟩ := Cert.Consts.ofBits_floor_pos
  have hs : (∑ k' : Fin 768, a (ix2 i k') * a (ix2 i k')) = ((∑ k' : Fin 768, x k' * x k' : ℝ) : EReal) := by
    rw [← coe_sum]; exact Finset.sum_congr rfl fun k' _ => by rw [hx k', ← EReal.coe_mul]
  have hnn : ¬(∑ k' : Fin 768, x k' * x k') < 0 := not_lt.mpr (Finset.sum_nonneg fun k' _ => mul_self_nonneg (x k'))
  rw [hs, Ideal.sqrt_coe, if_neg hnn, hfl, coe_max]
  exact (ha (ix2 i k)).div (ne_of_gt (lt_of_lt_of_le he (le_max_right _ _)))

/-! ## The rows of the loss -/

/-- The inner product of rows r and c of a matrix. -/
def simAt (Xm : S8192x768.Idx → EReal) (r c : ℕ) : EReal := ∑ k : Fin 768, rowAt Xm r k * rowAt Xm c k

theorem wAt_eq (Xm : S8192x768.Idx → EReal) (r c : ℕ) :
    wAt Xm r c = if r = c then 0 else Ideal.exp (simAt Xm r c * ((2 : ℝ) : EReal)) := rfl

/-- The row paired with row r: the same sample in the other view. -/
def partner (r : ℕ) : ℕ := if r < 4096 then r + 4096 else r - 4096

/-- A row of the loss the reference's way: minus the logarithm of the positive pair's exponential over the denominator. -/
def refRow (Xm : S8192x768.Idx → EReal) (r : Fin 8192) : EReal :=
  -(Ideal.log (Ideal.div (Ideal.exp (Ideal.div (simAt Xm r.val (partner r.val)) ((1 / 2 : ℝ) : EReal)))
      (denom Xm (ix2 r (0 : Fin 1)))))

/-- The positive pairs, row by row, are the stacked matrix's inner products of each row with its partner. -/
theorem positives_apply (p q : (⟨S4096x768, .f32⟩ : BufTy).Contents (Elt Ideal)) (r : Fin 8192) :
    positives p q (ix1 r) = simAt (stacked p q) r.val (partner r.val) := by
  unfold positives simAt partner
  by_cases h : r.val < 4096
  · rw [if_pos h]
    rw [concatenate_pair_apply_left (t := S8192) (s₁ := S4096) (s₂ := S4096) (0 : Fin 1) _ _ concatenates_S4096_S4096_S8192_d0 (ix1 r) rfl
      (ix1 (⟨r.val, h⟩ : Fin 4096)) (fun b => match b with | ⟨0, _⟩ => rfl), rowSumHost]
    refine Finset.sum_congr rfl fun k _ => ?_
    have h3' : r.val + 4096 - 4096 < 4096 := by omega
    have e : (⟨r.val + 4096 - 4096, h3'⟩ : Fin 4096) = ⟨r.val, h⟩ := Fin.ext (Nat.add_sub_cancel _ _)
    rw [stacked_top p q r.val h k, stacked_bot p q (r.val + 4096) (by omega) (by omega) h3' k, e]
    rfl
  · rw [if_neg h]
    have h1 : 4096 ≤ r.val := by omega
    have h3 : r.val - 4096 < 4096 := by have := r.isLt; omega
    rw [concatenate_pair_apply_right (t := S8192) (s₁ := S4096) (s₂ := S4096) (0 : Fin 1) _ _ concatenates_S4096_S4096_S8192_d0 (ix1 r) rfl rfl
      (ix1 (⟨r.val - 4096, h3⟩ : Fin 4096))
      (fun b hb => absurd (Subsingleton.elim _ _) hb) (Nat.sub_add_cancel h1), rowSumHost]
    refine Finset.sum_congr rfl fun k _ => ?_
    rw [stacked_bot p q r.val h1 r.isLt h3 k, stacked_top p q (r.val - 4096) h3 k]
    show p (ix2 ⟨r.val - 4096, h3⟩ k) * q (ix2 ⟨r.val - 4096, h3⟩ k) = _
    exact mul_comm _ _

/-- A row of the kernel program's loss. -/
theorem rowLoss_apply (D : (⟨S8192x1, .f32⟩ : BufTy).Contents (Elt Ideal)) (p q : (⟨S4096x768, .f32⟩ : BufTy).Contents (Elt Ideal)) (r : Fin 8192) :
    rowLoss D p q (ix1 r) = Ideal.log (D (ix2 r (0 : Fin 1))) - Ideal.div (positives p q (ix1 r)) ((1 / 2 : ℝ) : EReal) := by
  unfold rowLoss
  show Ideal.log (shapeCast S8192 D shapeCasts_S8192x1_S8192 (ix1 r))
      - Ideal.div (positives p q (ix1 r)) (broadcastInDim S8192 ![] bcast_S_S8192 (constant (F := Ideal) S_ .f32 0x3F000000#32) (ix1 r)) = _
  rw [shapeCast_apply D shapeCasts_S8192x1_S8192 (ix1 r) (ix2 r (0 : Fin 1)) (by
      rw [Shape.rowMajor_val_two, Shape.rowMajor_val_one]; show r.val * 1 + 0 = r.val; omega),
    broadcastInDim_scalar_apply bcast_S_S8192 _ _]
  show _ - Ideal.div _ (Ideal.ofBits .f32 0x3F000000#32) = _
  rw [Cert.Consts.ofBits_half]

/-! ## Real entries make the denominators positive reals -/

theorem rowAt_isReal (Xm : S8192x768.Idx → EReal) (hX : ∀ j, IsReal (Xm j)) (r : ℕ) (k : Fin 768) : IsReal (rowAt Xm r k) := by
  unfold rowAt; split
  · exact hX _
  · exact IsReal.zero

theorem simAt_isReal (Xm : S8192x768.Idx → EReal) (hX : ∀ j, IsReal (Xm j)) (r c : ℕ) : IsReal (simAt Xm r c) :=
  IsReal.sum _ _ fun k => (rowAt_isReal Xm hX r k).mul (rowAt_isReal Xm hX c k)

/-- Every row's denominator is a positive real number: its weights are zero or exponentials of reals, and some column is
    not its own. -/
theorem denom_pos (Xm : S8192x768.Idx → EReal) (hX : ∀ j, IsReal (Xm j)) (r : Fin 8192) :
    ∃ d : ℝ, 0 < d ∧ denom Xm (ix2 r (0 : Fin 1)) = (d : EReal) := by
  choose s hs using fun c : Fin 8192 => simAt_isReal Xm hX r.val c.val
  have hw : ∀ c : Fin 8192, wAt Xm r.val c.val = ((if r.val = c.val then 0 else Real.exp (s c * 2) : ℝ) : EReal) := fun c => by
    rw [wAt_eq]
    by_cases h : r.val = c.val
    · rw [if_pos h, if_pos h]; rfl
    · rw [if_neg h, if_neg h, hs c, ← EReal.coe_mul, Ideal.exp_coe]
  refine ⟨∑ c : Fin 8192, (if r.val = c.val then 0 else Real.exp (s c * 2)), ?_, ?_⟩
  · refine Finset.sum_pos' (fun c _ => by split; exact le_rfl; exact (Real.exp_pos _).le) ?_
    by_cases h0 : r.val = 0
    · exact ⟨⟨1, by norm_num⟩, Finset.mem_univ _, by rw [if_neg (by show ¬r.val = 1; omega)]; exact Real.exp_pos _⟩
    · exact ⟨⟨0, by norm_num⟩, Finset.mem_univ _, by rw [if_neg (by show ¬r.val = 0; exact h0)]; exact Real.exp_pos _⟩
  · show (∑ c : Fin 8192, wAt Xm r.val c.val) = _
    rw [← coe_sum]; exact Finset.sum_congr rfl fun c _ => hw c

/-- The stacked matrix of two arrays of real numbers has real entries. -/
theorem stacked_isReal (p q : (⟨S4096x768, .f32⟩ : BufTy).Contents (Elt Ideal)) (hp : ∀ j, IsReal (p j)) (hq : ∀ j, IsReal (q j))
    (j : S8192x768.Idx) : IsReal (stacked p q j) := by
  obtain ⟨r, k, rfl⟩ : ∃ (r : Fin 8192) (k : Fin 768), j = ix2 r k := ⟨j 0, j 1, eq_ix2 j⟩
  have e : stacked p q (ix2 r k) = rowAt (stacked p q) r.val k := by unfold rowAt; rw [dif_pos r.isLt]
  rw [e]
  by_cases h : r.val < 4096
  · rw [stacked_top p q r.val h k]; exact hp _
  · rw [stacked_bot p q r.val (by omega) r.isLt (by have := r.isLt; omega) k]; exact hq _

/-- THE ROW LAW: over normalised arguments with real entries, the kernel program's row of the loss is the reference's. -/
theorem kernel_row (p q : (⟨S4096x768, .f32⟩ : BufTy).Contents (Elt Ideal)) (hp : ∀ j, IsReal (p j)) (hq : ∀ j, IsReal (q j)) (r : Fin 8192) :
    rowLoss (denom (stacked p q)) p q (ix1 r) = refRow (stacked p q) r := by
  have hX := stacked_isReal p q hp hq
  obtain ⟨a, ha⟩ := simAt_isReal (stacked p q) hX r.val (partner r.val)
  obtain ⟨d, hd, hD⟩ := denom_pos (stacked p q) hX r
  rw [rowLoss_apply, positives_apply]
  unfold refRow
  rw [ha, hD]
  exact Cert.Loss.row_law a d hd

end Cert.KernelIdeal.Val

end
-- ==== Proof.RefProg.lean ====
/-
  The reference program as one line of host operations, and its run: every weakly fair execution terminates with each
  buffer at the fold of the operations over the launch contents. The list is the printed program's statements in order, the
  operations of the two calls of the row-norm function standing in the calls' places over the calls' buffers.
-/
import proofs.«177341_j9079560864194_1_alg».proof.Proof.Gen.ReferenceIdeal
import Idealize.ShloMosaic.Lib.StableHlo.Run

noncomputable section

namespace Cert.RefProg

open Cert.ReferenceIdeal Cert.ReferenceIdeal.Gen Idealize.ShloMosaic Idealize.ShloMosaic.TcCoe Idealize.SL.Sem Idealize.ShloMosaic.StableHlo

variable {F : FTy → Type} [FloatOps F]

/-- The program's 95 operations, in order. -/
abbrev ops : List (HloOp τ sig (Elt F)) :=
  [ StableHlo.TRef.binary (.of main_arg0 : StableHlo.TRef sig ⟨S4096x768, .f32⟩) (.of main_arg0 : StableHlo.TRef sig ⟨S4096x768, .f32⟩) main_call0.v0 mulf,
    StableHlo.TRef.nullary main_call0.cst (constant S_ .f32 0x00000000#32),
    StableHlo.TRef.binary main_call0.v0 main_call0.cst main_call0.v1 (fun x v => Host.reduceAdd x v reducesTo_S4096x768_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x2B8CBCCC#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x768 ![0, 1] bcast_S4096x1_S4096x768_0_1 : (⟨S4096x1, .f32⟩ : BufTy).Contents (Elt F) → (⟨S4096x768, .f32⟩ : BufTy).Contents (Elt F)),
    StableHlo.binary main_arg0 main_v3 main_v4 (Host.divf : (⟨S4096x768, .f32⟩ : BufTy).Contents (Elt F) → (⟨S4096x768, .f32⟩ : BufTy).Contents (Elt F) → (⟨S4096x768, .f32⟩ : BufTy).Contents (Elt F)),
    StableHlo.TRef.binary (.of main_arg1 : StableHlo.TRef sig ⟨S4096x768, .f32⟩) (.of main_arg1 : StableHlo.TRef sig ⟨S4096x768, .f32⟩) main_call1.v0 mulf,
    StableHlo.TRef.nullary main_call1.cst (constant S_ .f32 0x00000000#32),
    StableHlo.TRef.binary main_call1.v0 main_call1.cst main_call1.v1 (fun x v => Host.reduceAdd x v reducesTo_S4096x768_S4096_d1 h_S_),
    StableHlo.TRef.unary main_call1.v1 main_call1.v2 (broadcastInDim S4096x1 ![0] bcast_S4096_S4096x1_0),
    StableHlo.TRef.unary main_call1.v2 main_call1.v3 Host.sqrt,
    StableHlo.nullary main_cst_0 (constant S_ .f32 0x2B8CBCCC#32),
    StableHlo.unary main_cst_0 main_v6 (broadcastInDim S4096x1 ![] bcast_S_S4096x1 : (⟨S_, .f32⟩ : BufTy).Contents (Elt F) → (⟨S4096x1, .f32⟩ : BufTy).Contents (Elt F)),
    StableHlo.binary main_v5 main_v6 main_v7 (maximumf : (⟨S4096x1, .f32⟩ : BufTy).Contents (Elt F) → (⟨S4096x1, .f32⟩ : BufTy).Contents (Elt F) → (⟨S4096x1, .f32⟩ : BufTy).Contents (Elt F)),
    StableHlo.unary main_v7 main_v8 (broadcastInDim S4096x768 ![0, 1] bcast_S4096x1_S4096x768_0_1 : (⟨S4096x1, .f32⟩ : BufTy).Contents (Elt F) → (⟨S4096x768, .f32⟩ : BufTy).Contents (Elt F)),
    StableHlo.binary main_arg1 main_v8 main_v9 (Host.divf : (⟨S4096x768, .f32⟩ : BufTy).Contents (Elt F) → (⟨S4096x768, .f32⟩ : BufTy).Contents (Elt F) → (⟨S4096x768, .f32⟩ : BufTy).Contents (Elt F)),
    StableHlo.binary main_v4 main_v9 main_v10 ((fun a b => concatenate S8192x768 0 [⟨S4096x768, a⟩, ⟨S4096x768, b⟩] concatenates_S4096x768_S4096x768_S8192x768_d0) : (⟨S4096x768, .f32⟩ : BufTy).Contents (Elt F) → (⟨S4096x768, .f32⟩ : BufTy).Contents (Elt F) → (⟨S8192x768, .f32⟩ : BufTy).Contents (Elt F)),
    StableHlo.unary main_v10 main_v11 ((transpose S768x8192 [1, 0] · transposes_S8192x768_S768x8192_1_0) : (⟨S8192x768, .f32⟩ : BufTy).Contents (Elt F) → (⟨S768x8192, .f32⟩ : BufTy).Contents (Elt F)),
    StableHlo.binary main_v10 main_v11 main_v12 ((fun l r => Host.dotGeneral dot_S8192x768_S768x8192_S8192x8192_1_0_0_1_n_n none l r) : (⟨S8192x768, .f32⟩ : BufTy).Contents (Elt F) → (⟨S768x8192, .f32⟩ : BufTy).Contents (Elt F) → (⟨S8192x8192, .f32⟩ : BufTy).Contents (Elt F)),
    StableHlo.nullary main_v13 (iotaInDim S4096 32 0),
    StableHlo.nullary main_c (constantI S_ 32 4096#32),
    StableHlo.unary main_c main_v14 (broadcastInDim S4096 ![] bcast_S_S4096 : (⟨S_, .i32⟩ : BufTy).Contents (Elt F) → (⟨S4096, .i32⟩ : BufTy).Contents (Elt F)),
    StableHlo.binary main_v13 main_v14 main_v15 (addi : (⟨S4096, .i32⟩ : BufTy).Contents (Elt F) → (⟨S4096, .i32⟩ : BufTy).Contents (Elt F) → (⟨S4096, .i32⟩ : BufTy).Contents (Elt F)),
    StableHlo.nullary main_c_1 (constantI S_ 32 0#32),
    StableHlo.unary main_c_1 main_v16 (broadcastInDim S4096 ![] bcast_S_S4096 : (⟨S_, .i32⟩ : BufTy).Contents (Elt F) → (⟨S4096, .i32⟩ : BufTy).Contents (Elt F)),
    StableHlo.binary main_v13 main_v16 main_v17 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 8192#32),
    StableHlo.unary main_c_2 main_v18 (broadcastInDim S4096 ![] bcast_S_S4096 : (⟨S_, .i32⟩ : BufTy).Contents (Elt F) → (⟨S4096, .i32⟩ : BufTy).Contents (Elt F)),
    StableHlo.binary main_v13 main_v18 main_v19 (addi : (⟨S4096, .i32⟩ : BufTy).Contents (Elt F) → (⟨S4096, .i32⟩ : BufTy).Contents (Elt F) → (⟨S4096, .i32⟩ : BufTy).Contents (Elt F)),
    StableHlo.ternary main_v17 main_v19 main_v13 main_v20 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_3 (constantI S_ 32 0#32),
    StableHlo.unary main_c_3 main_v21 (broadcastInDim S4096 ![] bcast_S_S4096 : (⟨S_, .i32⟩ : BufTy).Contents (Elt F) → (⟨S4096, .i32⟩ : BufTy).Contents (Elt F)),
    StableHlo.binary main_v15 main_v21 main_v22 (cmpi .slt : (⟨S4096, .i32⟩ : BufTy).Contents (Elt F) → (⟨S4096, .i32⟩ : BufTy).Contents (Elt F) → (⟨S4096, .i1⟩ : BufTy).Contents (Elt F)),
    StableHlo.nullary main_c_4 (constantI S_ 32 8192#32),
    StableHlo.unary main_c_4 main_v23 (broadcastInDim S4096 ![] bcast_S_S4096 : (⟨S_, .i32⟩ : BufTy).Contents (Elt F) → (⟨S4096, .i32⟩ : BufTy).Contents (Elt F)),
    StableHlo.binary main_v15 main_v23 main_v24 (addi : (⟨S4096, .i32⟩ : BufTy).Contents (Elt F) → (⟨S4096, .i32⟩ : BufTy).Contents (Elt F) → (⟨S4096, .i32⟩ : BufTy).Contents (Elt F)),
    StableHlo.ternary main_v22 main_v24 main_v15 main_v25 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v20 main_v26 (broadcastInDim S4096x1 ![0] bcast_S4096_S4096x1_0 : (⟨S4096, .i32⟩ : BufTy).Contents (Elt F) → (⟨S4096x1, .i32⟩ : BufTy).Contents (Elt F)),
    StableHlo.unary main_v25 main_v27 (broadcastInDim S4096x1 ![0] bcast_S4096_S4096x1_0 : (⟨S4096, .i32⟩ : BufTy).Contents (Elt F) → (⟨S4096x1, .i32⟩ : BufTy).Contents (Elt F)),
    StableHlo.binary main_v26 main_v27 main_v28 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v12 main_v28 main_v29 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    StableHlo.nullary main_c_5 (constantI S_ 32 4096#32),
    StableHlo.unary main_c_5 main_v30 (broadcastInDim S4096 ![] bcast_S_S4096 : (⟨S_, .i32⟩ : BufTy).Contents (Elt F) → (⟨S4096, .i32⟩ : BufTy).Contents (Elt F)),
    StableHlo.binary main_v13 main_v30 main_v31 (addi : (⟨S4096, .i32⟩ : BufTy).Contents (Elt F) → (⟨S4096, .i32⟩ : BufTy).Contents (Elt F) → (⟨S4096, .i32⟩ : BufTy).Contents (Elt F)),
    StableHlo.nullary main_c_6 (constantI S_ 32 0#32),
    StableHlo.unary main_c_6 main_v32 (broadcastInDim S4096 ![] bcast_S_S4096 : (⟨S_, .i32⟩ : BufTy).Contents (Elt F) → (⟨S4096, .i32⟩ : BufTy).Contents (Elt F)),
    StableHlo.binary main_v31 main_v32 main_v33 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 8192#32),
    StableHlo.unary main_c_7 main_v34 (broadcastInDim S4096 ![] bcast_S_S4096 : (⟨S_, .i32⟩ : BufTy).Contents (Elt F) → (⟨S4096, .i32⟩ : BufTy).Contents (Elt F)),
    StableHlo.binary main_v31 main_v34 main_v35 (addi : (⟨S4096, .i32⟩ : BufTy).Contents (Elt F) → (⟨S4096, .i32⟩ : BufTy).Contents (Elt F) → (⟨S4096, .i32⟩ : BufTy).Contents (Elt F)),
    StableHlo.ternary main_v33 main_v35 main_v31 main_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_8 (constantI S_ 32 0#32),
    StableHlo.unary main_c_8 main_v37 (broadcastInDim S4096 ![] bcast_S_S4096 : (⟨S_, .i32⟩ : BufTy).Contents (Elt F) → (⟨S4096, .i32⟩ : BufTy).Contents (Elt F)),
    StableHlo.binary main_v13 main_v37 main_v38 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 8192#32),
    StableHlo.unary main_c_9 main_v39 (broadcastInDim S4096 ![] bcast_S_S4096 : (⟨S_, .i32⟩ : BufTy).Contents (Elt F) → (⟨S4096, .i32⟩ : BufTy).Contents (Elt F)),
    StableHlo.binary main_v13 main_v39 main_v40 (addi : (⟨S4096, .i32⟩ : BufTy).Contents (Elt F) → (⟨S4096, .i32⟩ : BufTy).Contents (Elt F) → (⟨S4096, .i32⟩ : BufTy).Contents (Elt F)),
    StableHlo.ternary main_v38 main_v40 main_v13 main_v41 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v36 main_v42 (broadcastInDim S4096x1 ![0] bcast_S4096_S4096x1_0 : (⟨S4096, .i32⟩ : BufTy).Contents (Elt F) → (⟨S4096x1, .i32⟩ : BufTy).Contents (Elt F)),
    StableHlo.unary main_v41 main_v43 (broadcastInDim S4096x1 ![0] bcast_S4096_S4096x1_0 : (⟨S4096, .i32⟩ : BufTy).Contents (Elt F) → (⟨S4096x1, .i32⟩ : BufTy).Contents (Elt F)),
    StableHlo.binary main_v42 main_v43 main_v44 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v12 main_v44 main_v45 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    StableHlo.binary main_v29 main_v45 main_v46 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    StableHlo.nullary main_cst_10 (constant S_ .f32 0x3F000000#32),
    StableHlo.unary main_cst_10 main_v47 (broadcastInDim S8192 ![] bcast_S_S8192 : (⟨S_, .f32⟩ : BufTy).Contents (Elt F) → (⟨S8192, .f32⟩ : BufTy).Contents (Elt F)),
    StableHlo.binary main_v46 main_v47 main_v48 (Host.divf : (⟨S8192, .f32⟩ : BufTy).Contents (Elt F) → (⟨S8192, .f32⟩ : BufTy).Contents (Elt F) → (⟨S8192, .f32⟩ : BufTy).Contents (Elt F)),
    StableHlo.unary main_v48 main_v49 (Host.exp : (⟨S8192, .f32⟩ : BufTy).Contents (Elt F) → (⟨S8192, .f32⟩ : BufTy).Contents (Elt F)),
    StableHlo.nullary main_v50 (iotaInDim S8192x8192 32 0),
    StableHlo.nullary main_v51 (iotaInDim S8192x8192 32 1),
    StableHlo.nullary main_c_11 (constantI S_ 32 0#32),
    StableHlo.unary main_c_11 main_v52 (broadcastInDim S8192x8192 ![] bcast_S_S8192x8192 : (⟨S_, .i32⟩ : BufTy).Contents (Elt F) → (⟨S8192x8192, .i32⟩ : BufTy).Contents (Elt F)),
    StableHlo.binary main_v50 main_v52 main_v53 (addi : (⟨S8192x8192, .i32⟩ : BufTy).Contents (Elt F) → (⟨S8192x8192, .i32⟩ : BufTy).Contents (Elt F) → (⟨S8192x8192, .i32⟩ : BufTy).Contents (Elt F)),
    StableHlo.binary main_v53 main_v51 main_v54 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v54 main_v55 (uitofp .f32 : (⟨S8192x8192, .i1⟩ : BufTy).Contents (Elt F) → (⟨S8192x8192, .f32⟩ : BufTy).Contents (Elt F)),
    StableHlo.nullary main_cst_12 (constant S_ .f32 0x3F800000#32),
    StableHlo.unary main_cst_12 main_v56 (broadcastInDim S8192x8192 ![] bcast_S_S8192x8192 : (⟨S_, .f32⟩ : BufTy).Contents (Elt F) → (⟨S8192x8192, .f32⟩ : BufTy).Contents (Elt F)),
    StableHlo.binary main_v56 main_v55 main_v57 (subf : (⟨S8192x8192, .f32⟩ : BufTy).Contents (Elt F) → (⟨S8192x8192, .f32⟩ : BufTy).Contents (Elt F) → (⟨S8192x8192, .f32⟩ : BufTy).Contents (Elt F)),
    StableHlo.nullary main_cst_13 (constant S_ .f32 0x3F000000#32),
    StableHlo.unary main_cst_13 main_v58 (broadcastInDim S8192x8192 ![] bcast_S_S8192x8192 : (⟨S_, .f32⟩ : BufTy).Contents (Elt F) → (⟨S8192x8192, .f32⟩ : BufTy).Contents (Elt F)),
    StableHlo.binary main_v12 main_v58 main_v59 (Host.divf : (⟨S8192x8192, .f32⟩ : BufTy).Contents (Elt F) → (⟨S8192x8192, .f32⟩ : BufTy).Contents (Elt F) → (⟨S8192x8192, .f32⟩ : BufTy).Contents (Elt F)),
    StableHlo.unary main_v59 main_v60 (Host.exp : (⟨S8192x8192, .f32⟩ : BufTy).Contents (Elt F) → (⟨S8192x8192, .f32⟩ : BufTy).Contents (Elt F)),
    StableHlo.binary main_v57 main_v60 main_v61 (mulf : (⟨S8192x8192, .f32⟩ : BufTy).Contents (Elt F) → (⟨S8192x8192, .f32⟩ : BufTy).Contents (Elt F) → (⟨S8192x8192, .f32⟩ : BufTy).Contents (Elt F)),
    StableHlo.nullary main_cst_14 (constant S_ .f32 0x00000000#32),
    StableHlo.binary main_v61 main_cst_14 main_v62 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.binary main_v49 main_v62 main_v63 (Host.divf : (⟨S8192, .f32⟩ : BufTy).Contents (Elt F) → (⟨S8192, .f32⟩ : BufTy).Contents (Elt F) → (⟨S8192, .f32⟩ : BufTy).Contents (Elt F)),
    StableHlo.unary main_v63 main_v64 (Host.log : (⟨S8192, .f32⟩ : BufTy).Contents (Elt F) → (⟨S8192, .f32⟩ : BufTy).Contents (Elt F)),
    StableHlo.unary main_v64 main_v65 (Host.negf : (⟨S8192, .f32⟩ : BufTy).Contents (Elt F) → (⟨S8192, .f32⟩ : BufTy).Contents (Elt F)),
    StableHlo.nullary main_cst_15 (constant S_ .f32 0x00000000#32),
    StableHlo.binary main_v65 main_cst_15 main_v66 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_16 (constant S_ .f32 0x46000000#32),
    StableHlo.binary main_v66 main_cst_16 main_v67 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., unary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., binary_bufs_sub .., unary_bufs_sub .., unary_bufs_sub .., nullary_bufs_sub .., binary_bufs_sub .., nullary_bufs_sub .., binary_bufs_sub ..⟩

/-- The run: each buffer ends at the fold of the operations over what the memory held at launch. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.RefProg

end
-- ==== Proof.LibHloEnv.lean ====
/-
  Running a straight line of host operations with every intermediate value kept once. The library's fold
  `StableHlo.after ops V` gives what each buffer holds after the operations; reading it at the last result by
  rewriting re-derives every shared intermediate value at each of its uses. Here the fold is walked once, front to
  back, carrying an environment: a list of (buffer, value) pairs the current contents agree with, and the list of the
  buffers named so far. An operation whose operands are in the environment and whose result buffer is new (the
  program is in single-assignment form) extends the environment by its result; nothing else changes. At the end the
  environment holds the result buffers' values as terms of the launch contents, and the argument buffers unchanged.
  The walk is in continuation form, so that a proof is one `refine` per operation.
-/
import Idealize.ShloMosaic.Lib.StableHlo.Run

noncomputable section

namespace HloEnv

open Idealize.ShloMosaic Idealize.ShloMosaic.StableHlo Idealize.ShloMosaic.TcCoe

variable {τ : Topo} {sig : RefSig} {Val : EltTy → Type}

/-- A buffer with a value of its type. -/
abbrev Entry (sig : RefSig) (Val : EltTy → Type) : Type := (r : Ref sig .tc) × r.ty.Contents Val

/-- The contents `W` hold, at every buffer of the environment, the value listed for it; `keys` are the environment's
    buffers in order (kept apart so that "this buffer is new" is a closed, decidable fact about references). -/
structure Inv (W : Valuation τ sig Val) (keys : List (Ref sig .tc)) (env : List (Entry sig Val)) : Prop where
  agrees : ∀ p ∈ env, W (Proc.devRef .tc p.1) = p.2
  keys_eq : env.map Sigma.fst = keys

theorem Inv.fresh {W : Valuation τ sig Val} {keys : List (Ref sig .tc)} {env : List (Entry sig Val)} (h : Inv W keys env)
    {y : Ref sig .tc} (hy : y ∉ keys) : ∀ p ∈ env, p.1 ≠ y := fun p hp e =>
  hy (h.keys_eq ▸ e ▸ List.mem_map_of_mem (f := Sigma.fst) hp)

/-- The start: the launch contents agree with themselves at the listed buffers. -/
theorem Inv.start (V : Valuation τ sig Val) (rs : List (Ref sig .tc)) :
    Inv V rs (rs.map fun r => ⟨r, V (Proc.devRef .tc r)⟩) where
  agrees p hp := by
    obtain ⟨r, -, rfl⟩ := List.mem_map.mp hp
    rfl
  keys_eq := by
    rw [List.map_map]
    exact List.map_id' _ |>.symm ▸ rfl

/-- The start, for two argument buffers. -/
theorem Inv.start2 (V : Valuation τ sig Val) (a b : Ref sig .tc) :
    Inv V [a, b] [⟨a, V (Proc.devRef .tc a)⟩, ⟨b, V (Proc.devRef .tc b)⟩] where
  agrees p hp := by
    rcases List.mem_cons.mp hp with rfl | hp
    · rfl
    · rcases List.mem_cons.mp hp with rfl | hp
      · rfl
      · exact absurd hp (List.not_mem_nil)
  keys_eq := rfl

variable {W : Valuation τ sig Val} {keys : List (Ref sig .tc)} {env : List (Entry sig Val)}
  {Q : Valuation τ sig Val → Prop} {rest : List (HloOp τ sig Val)}

/-- The environment after an operation that wrote only the new buffer `y`, with value `v` there. -/
theorem Inv.extend (h : Inv W keys env) (op : HloOp τ sig Val) (y : Ref sig .tc) (v : y.ty.Contents Val)
    (hy : y ∉ keys) (hres : op.result W (Proc.devRef .tc y) = v)
    (hne : ∀ r : Ref sig .tc, r ≠ y → op.result W (Proc.devRef .tc r) = W (Proc.devRef .tc r)) :
    Inv (op.result W) (y :: keys) (⟨y, v⟩ :: env) where
  agrees p hp := by
    rcases List.mem_cons.mp hp with rfl | hp
    · exact hres
    · rw [hne p.1 (h.fresh hy p hp)]; exact h.agrees p hp
  keys_eq := by rw [List.map_cons, h.keys_eq]

theorem step_nullary (y : Ref sig .tc) (v : y.ty.Contents Val) (hy') (hy : y ∉ keys)
    (k : ∀ W', Inv W' (y :: keys) (⟨y, v⟩ :: env) → Q (after rest W')) :
    Inv W keys env → Q (after (nullary (τ := τ) y v hy' :: rest) W) := fun h =>
  k _ (h.extend _ y v hy (nullary_result y v hy' W) fun _ hr => nullary_result_ne y v hy' W hr)

theorem step_unary (x y : Ref sig .tc) (f : x.ty.Contents Val → y.ty.Contents Val) (hx' hy')
    (vx : x.ty.Contents Val) (hmx : (⟨x, vx⟩ : Entry sig Val) ∈ env) (hy : y ∉ keys)
    (k : ∀ W', Inv W' (y :: keys) (⟨y, f vx⟩ :: env) → Q (after rest W')) :
    Inv W keys env → Q (after (unary (τ := τ) x y f hx' hy' :: rest) W) := fun h =>
  k _ (h.extend _ y (f vx) hy ((unary_result x y f hx' hy' W).trans (congrArg f (h.agrees _ hmx)))
    fun _ hr => unary_result_ne x y f hx' hy' W hr)

theorem step_binary (a b y : Ref sig .tc) (f : a.ty.Contents Val → b.ty.Contents Val → y.ty.Contents Val) (ha' hb' hy')
    (va : a.ty.Contents Val) (vb : b.ty.Contents Val) (hma : (⟨a, va⟩ : Entry sig Val) ∈ env)
    (hmb : (⟨b, vb⟩ : Entry sig Val) ∈ env) (hy : y ∉ keys)
    (k : ∀ W', Inv W' (y :: keys) (⟨y, f va vb⟩ :: env) → Q (after rest W')) :
    Inv W keys env → Q (after (binary (τ := τ) a b y f ha' hb' hy' :: rest) W) := fun h =>
  k _ (h.extend _ y (f va vb) hy
    ((binary_result a b y f ha' hb' hy' W).trans (congrArg₂ f (h.agrees _ hma) (h.agrees _ hmb)))
    fun _ hr => binary_result_ne a b y f ha' hb' hy' W hr)

theorem step_ternary (c a b y : Ref sig .tc)
    (f : c.ty.Contents Val → a.ty.Contents Val → b.ty.Contents Val → y.ty.Contents Val) (hc' ha' hb' hy')
    (vc : c.ty.Contents Val) (va : a.ty.Contents Val) (vb : b.ty.Contents Val) (hmc : (⟨c, vc⟩ : Entry sig Val) ∈ env)
    (hma : (⟨a, va⟩ : Entry sig Val) ∈ env) (hmb : (⟨b, vb⟩ : Entry sig Val) ∈ env) (hy : y ∉ keys)
    (k : ∀ W', Inv W' (y :: keys) (⟨y, f vc va vb⟩ :: env) → Q (after rest W')) :
    Inv W keys env → Q (after (ternary (τ := τ) c a b y f hc' ha' hb' hy' :: rest) W) := fun h =>
  k _ (h.extend _ y (f vc va vb) hy
    ((ternary_result c a b y f hc' ha' hb' hy' W).trans (by rw [h.agrees _ hmc, h.agrees _ hma, h.agrees _ hmb]))
    fun _ hr => ternary_result_ne a b c y f hc' ha' hb' hy' W hr)

theorem step_reshape (x y : Ref sig .tc) (he : x.ty.elt = y.ty.elt) (hn : x.ty.shape.ShapeCasts y.ty.shape) (hx' hy')
    (vx : x.ty.Contents Val) (hmx : (⟨x, vx⟩ : Entry sig Val) ∈ env) (hy : y ∉ keys)
    (k : ∀ W', Inv W' (y :: keys) (⟨y, fun i => he ▸ shapeCast y.ty.shape vx hn i⟩ :: env) → Q (after rest W')) :
    Inv W keys env → Q (after (reshape (τ := τ) (Val := Val) x y he hn hx' hy' :: rest) W) := fun h =>
  k _ (h.extend _ y _ hy ((reshape_result x y he hn hx' hy' W).trans (by rw [h.agrees _ hmx]))
    fun _ hr => reshape_result_ne x y he hn hx' hy' W hr)

/-- The fold over a concatenation is the fold over the second list from the fold over the first. -/
theorem after_append : ∀ (l₁ l₂ : List (HloOp τ sig Val)) (V : Valuation τ sig Val), after (l₁ ++ l₂) V = after l₂ (after l₁ V)
  | [], _, _ => rfl
  | op :: l₁, l₂, V => after_append l₁ l₂ (op.result V)

/-- "After the operations `l` more, `Q`": what is still owed when a line is walked one stretch at a time. -/
def Then (l : List (HloOp τ sig Val)) (Q : Valuation τ sig Val → Prop) (W : Valuation τ sig Val) : Prop := Q (after l W)

/-- A line that is two stretches: walk the first, owing the second. -/
theorem step_append (l₁ l₂ : List (HloOp τ sig Val)) (k : Inv W keys env → Then l₂ Q (after l₁ W)) :
    Inv W keys env → Q (after (l₁ ++ l₂) W) := fun h => by
  rw [after_append]; exact k h

/-- The end of a stretch: go on with what is owed. -/
theorem step_then (l₂ : List (HloOp τ sig Val)) (k : Inv W keys env → Q (after l₂ W)) :
    Inv W keys env → Then l₂ Q (after ([] : List (HloOp τ sig Val)) W) := k

/-- The end of the line. -/
theorem step_nil (k : Inv W keys env → Q W) : Inv W keys env → Q (after ([] : List (HloOp τ sig Val)) W) := k

/-- Finds a buffer's entry in the environment, newest first. -/
macro "env_mem" : tactic => `(tactic| repeat (first | exact List.Mem.head _ | apply List.Mem.tail))

open Lean Elab Tactic Meta in
/-- One operation of the line: the goal is `Inv W keys env → Q (after (op :: rest) W)`; the builder that `op` is
    decides which step applies. -/
elab "hlo_step" : tactic => withMainContext do
  let g ← getMainGoal
  let t ← instantiateMVars (← g.getType)
  let some (_, body) := t.arrow? | throwError "hlo_step: the goal is not an implication"
  let aft := body.appArg!
  unless aft.isAppOf ``Idealize.ShloMosaic.StableHlo.after do throwError "hlo_step: no fold in the goal"
  let L ← whnf aft.appFn!.appArg!
  unless L.isAppOfArity ``List.cons 3 do throwError "hlo_step: the line has ended"
  let op ← whnfR (L.getArg! 1)
  match op.getAppFn.constName? with
  | some n =>
    if n == ``Idealize.ShloMosaic.StableHlo.binary then
      evalTactic (← `(tactic| (refine step_binary _ _ _ _ _ _ _ ?va ?vb ?hma ?hmb (by decide +kernel) (fun W' => ?k)
                               case hma => env_mem
                               case hmb => env_mem)))
    else if n == ``Idealize.ShloMosaic.StableHlo.unary then
      evalTactic (← `(tactic| (refine step_unary _ _ _ _ _ ?vx ?hmx (by decide +kernel) (fun W' => ?k)
                               case hmx => env_mem)))
    else if n == ``Idealize.ShloMosaic.StableHlo.nullary then
      evalTactic (← `(tactic| refine step_nullary _ _ _ (by decide +kernel) (fun W' => ?k)))
    else if n == ``Idealize.ShloMosaic.StableHlo.reshape then
      evalTactic (← `(tactic| (refine step_reshape _ _ _ _ _ _ ?vx ?hmx (by decide +kernel) (fun W' => ?k)
                               case hmx => env_mem)))
    else if n == ``Idealize.ShloMosaic.StableHlo.ternary then
      evalTactic (← `(tactic| (refine step_ternary _ _ _ _ _ _ _ _ _ ?vc ?va ?vb ?hmc ?hma ?hmb (by decide +kernel) (fun W' => ?k)
                               case hmc => env_mem
                               case hma => env_mem
                               case hmb => env_mem)))
    else throwError "hlo_step: no step for the builder {n}"
  | none => throwError "hlo_step: the operation is no builder's: {op}"

end HloEnv

end
-- ==== Proof.RefWalk.lean ====
/-
  The reference program's result, with every shared value named once.

  Walking the reference's 95 operations front to back, keeping each buffer's value: the two normalised arguments, their stack X
  and the similarity matrix S = X · Xᵀ are named as they appear (S is used three times); the result is then the mean over the
  rows of −log(exp(positive / ½) / denominator), where the positives are gathered off S at the index pairs (r, r + 4096) and
  (r + 4096, r) — each index first wrapped as a negative index would be — and the denominators are the row sums of
  (1 − [row = column]) · exp(S / ½).
-/
import proofs.«177341_j9079560864194_1_alg».proof.Proof.RefProg
import proofs.«177341_j9079560864194_1_alg».proof.Proof.LibHloEnv
import proofs.«177341_j9079560864194_1_alg».proof.Proof.KI.Host

noncomputable section

namespace Cert.RefWalk

open Cert.ReferenceIdeal Cert.ReferenceIdeal.Gen Idealize.ShloMosaic Idealize.ShloMosaic.TcCoe Idealize.SL.Sem Idealize.ShloMosaic.StableHlo
open Cert.KernelIdeal.Val (unitRows stacked meanOf)
open HloEnv

/-- The whole similarity matrix of a stacked matrix: X · Xᵀ. -/
def simM (Xm : (⟨S8192x768, .f32⟩ : BufTy).Contents (Elt Ideal)) : (⟨S8192x8192, .f32⟩ : BufTy).Contents (Elt Ideal) :=
  Host.dotGeneral (F := Ideal) (φ₁ := .f32) (φ₂ := .f32) dot_S8192x768_S768x8192_S8192x8192_1_0_0_1_n_n none Xm
    (transpose S768x8192 [1, 0] Xm transposes_S8192x768_S768x8192_1_0)

/-- The row numbers 0 … 4095, each wrapped as a negative index would be. -/
def rowIdx : (⟨S4096, .i32⟩ : BufTy).Contents (Elt Ideal) :=
  select (cmpi .slt (iotaInDim S4096 32 0) (broadcastInDim S4096 ![] bcast_S_S4096 (constantI S_ 32 0#32))) (addi (iotaInDim S4096 32 0) (broadcastInDim S4096 ![] bcast_S_S4096 (constantI S_ 32 8192#32))) (iotaInDim S4096 32 0)

/-- The partner row numbers 4096 … 8191, likewise. -/
def partnerIdx : (⟨S4096, .i32⟩ : BufTy).Contents (Elt Ideal) :=
  select (cmpi .slt (addi (iotaInDim S4096 32 0) (broadcastInDim S4096 ![] bcast_S_S4096 (constantI S_ 32 4096#32))) (broadcastInDim S4096 ![] bcast_S_S4096 (constantI S_ 32 0#32))) (addi (addi (iotaInDim S4096 32 0) (broadcastInDim S4096 ![] bcast_S_S4096 (constantI S_ 32 4096#32))) (broadcastInDim S4096 ![] bcast_S_S4096 (constantI S_ 32 8192#32))) (addi (iotaInDim S4096 32 0) (broadcastInDim S4096 ![] bcast_S_S4096 (constantI S_ 32 4096#32)))

/-- Two index vectors as the two columns of an array of index pairs. -/
def pairIdx (u v : (⟨S4096, .i32⟩ : BufTy).Contents (Elt Ideal)) : (⟨S4096x2, .i32⟩ : BufTy).Contents (Elt Ideal) :=
  concatenate S4096x2 1 [⟨S4096x1, broadcastInDim S4096x1 ![0] bcast_S4096_S4096x1_0 u⟩, ⟨S4096x1, broadcastInDim S4096x1 ![0] bcast_S4096_S4096x1_0 v⟩]
    concatenates_S4096x1_S4096x1_S4096x2_d1

/-- The positive pairs: S gathered at (r, r + 4096) for the first half of the rows and at (r + 4096, r) for the second. -/
def posVec (Xm : (⟨S8192x768, .f32⟩ : BufTy).Contents (Elt Ideal)) : (⟨S8192, .f32⟩ : BufTy).Contents (Elt Ideal) :=
  concatenate S8192 0
    [⟨S4096, Host.gather gather_S8192x8192_S4096x2_S4096_n_01_n_n_01_1_11 (simM Xm) (pairIdx rowIdx partnerIdx)⟩,
     ⟨S4096, Host.gather gather_S8192x8192_S4096x2_S4096_n_01_n_n_01_1_11 (simM Xm) (pairIdx partnerIdx rowIdx)⟩]
    concatenates_S4096_S4096_S8192_d0

/-- The mask off the diagonal: one minus the indicator of row = column. -/
def maskM : (⟨S8192x8192, .f32⟩ : BufTy).Contents (Elt Ideal) :=
  subf (F := Ideal) (broadcastInDim S8192x8192 ![] bcast_S_S8192x8192 (constant (F := Ideal) S_ .f32 0x3F800000#32))
    (uitofp (F := Ideal) .f32 (cmpi .eq (addi (iotaInDim S8192x8192 32 0) (broadcastInDim S8192x8192 ![] bcast_S_S8192x8192 (constantI S_ 32 0#32)))
      (iotaInDim S8192x8192 32 1)))

/-- The denominators: row sums of the masked exponentials of S over the temperature. -/
def denomVec (Xm : (⟨S8192x768, .f32⟩ : BufTy).Contents (Elt Ideal)) : (⟨S8192, .f32⟩ : BufTy).Contents (Elt Ideal) :=
  Host.reduceAdd (F := Ideal)
    (mulf (F := Ideal) maskM (Host.exp (F := Ideal) (Host.divf (F := Ideal) (simM Xm)
      (broadcastInDim S8192x8192 ![] bcast_S_S8192x8192 (constant (F := Ideal) S_ .f32 0x3F000000#32)))))
    (constant (F := Ideal) S_ .f32 0x00000000#32) reducesTo_S8192x8192_S8192_d1 h_S_

/-- The reference's rows of the loss. -/
def refLoss (Xm : (⟨S8192x768, .f32⟩ : BufTy).Contents (Elt Ideal)) : (⟨S8192, .f32⟩ : BufTy).Contents (Elt Ideal) :=
  Host.negf (F := Ideal) (Host.log (F := Ideal) (Host.divf (F := Ideal)
    (Host.exp (F := Ideal) (Host.divf (F := Ideal) (posVec Xm) (broadcastInDim S8192 ![] bcast_S_S8192 (constant (F := Ideal) S_ .f32 0x3F000000#32))))
    (denomVec Xm)))

/-- What is asked of the contents after the line: the result at the mean of the rows of the loss over the stacked normalised
    arguments, both arguments as they were. -/
def Post (V W : Valuation τ sig (Elt Ideal)) : Prop :=
  W (Proc.devRef .tc main_v67)
      = meanOf (refLoss (stacked (unitRows (V (Proc.devRef .tc main_arg0))) (unitRows (V (Proc.devRef .tc main_arg1)))))
    ∧ W (Proc.devRef .tc main_arg0) = V (Proc.devRef .tc main_arg0)
    ∧ W (Proc.devRef .tc main_arg1) = V (Proc.devRef .tc main_arg1)

set_option maxRecDepth 16384 in
set_option maxHeartbeats 4000000 in
/-- The fold of the program's operations over any contents. -/
theorem after_ops (V : Valuation τ sig (Elt Ideal)) : Post V (after (Cert.RefProg.ops (F := Ideal)) V) := by
  refine (?walk : Inv V [main_arg0, main_arg1] [⟨main_arg0, V (Proc.devRef .tc main_arg0)⟩, ⟨main_arg1, V (Proc.devRef .tc main_arg1)⟩] →
    Post V (after (Cert.RefProg.ops (F := Ideal)) V)) (Inv.start2 V main_arg0 main_arg1)
  hlo_step
  hlo_step
  hlo_step
  hlo_step
  hlo_step
  hlo_step
  hlo_step
  hlo_step
  hlo_step
  hlo_step
  change Inv _ _ (⟨main_v4, unitRows (V (Proc.devRef .tc main_arg0))⟩ :: _) → _
  hlo_step
  hlo_step
  hlo_step
  hlo_step
  hlo_step
  hlo_step
  hlo_step
  hlo_step
  hlo_step
  hlo_step
  change Inv _ _ (⟨main_v9, unitRows (V (Proc.devRef .tc main_arg1))⟩ :: _) → _
  hlo_step
  change Inv _ _ (⟨main_v10, stacked (unitRows (V (Proc.devRef .tc main_arg0))) (unitRows (V (Proc.devRef .tc main_arg1)))⟩ :: _) → _
  hlo_step
  hlo_step
  change Inv _ _ (⟨main_v12, simM (stacked (unitRows (V (Proc.devRef .tc main_arg0))) (unitRows (V (Proc.devRef .tc main_arg1))))⟩ :: _) → _
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  hlo_step
  refine step_nil fun h => ?_
  exact ⟨h.agrees ⟨main_v67, _⟩ (by env_mem), h.agrees ⟨main_arg0, _⟩ (by env_mem), h.agrees ⟨main_arg1, _⟩ (by env_mem)⟩

/-- THE REFERENCE'S RUN: every weakly fair execution terminates with the result at the mean of the rows of the loss and both
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
          = meanOf (refLoss (stacked (unitRows (m ((c.tc : Thread nD τ).loc main_arg0))) (unitRows (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v67).trans (after_ops (launchContents m c)).1,
     (h c main_arg0).trans (after_ops (launchContents m c)).2.1,
     (h c main_arg1).trans (after_ops (launchContents m c)).2.2⟩) (Cert.RefProg.run_raw m ρ)

end Cert.RefWalk

end
-- ==== Proof.RefRows.lean ====
/-
  The reference program's rows of the loss, read on the extended reals.

  The reference stacks the two normalised arguments into X, forms the whole similarity matrix S = X · Xᵀ, takes each row's
  positive pair off it by a gather at (r, r ± 4096), and its denominator as the row sum of (1 − [r = c]) · exp(S(r, c) / ½).
  Read entry by entry: S(r, c) is the inner product of rows r and c of X; the gathered indices are small non-negative
  words, so neither the wrap for negative indices nor the clamp changes them; the mask times the exponential is the masked
  weight (zero on the diagonal, and dividing by ½ is doubling); so row r of the reference's loss is
  −log(exp(S(r, r') / ½) / Σ_c w(r, c)) with r' the partner row.
-/
import proofs.«177341_j9079560864194_1_alg».proof.Proof.RefWalk
import proofs.«177341_j9079560864194_1_alg».proof.Proof.KI.Rows
import Idealize.ShloMosaic.Lib.ValueLayout

set_option maxRecDepth 16384

noncomputable section

namespace Cert.RefRows

open Cert.ReferenceIdeal Cert.ReferenceIdeal.Gen Cert.RefWalk
open Idealize.ShloMosaic Idealize.ShloMosaic.ValueIdx
open Cert.KernelIdeal.Val (rowAt wAt wAt_eq simAt denom partner refRow)

/-! ## Small non-negative words -/

theorem toNat_small (n : ℕ) (h : n < 2147483648) : (BitVec.ofNat 32 n).toNat = n := by
  rw [BitVec.toNat_ofNat]; omega

theorem toInt_small (n : ℕ) (h : n < 2147483648) : (BitVec.ofNat 32 n).toInt = (n : ℤ) := by
  rw [BitVec.toInt_eq_toNat_of_lt (by rw [toNat_small n h]; omega), toNat_small n h]

/-- A small non-negative word is not below zero: the wrap for negative indices leaves it alone. -/
theorem select_nonneg (n : ℕ) (h : n < 2147483648) (u : BitVec 32) :
    Scalar.select (IntOp.cmpi .slt (BitVec.ofNat 32 n) 0#32) u (BitVec.ofNat 32 n) = BitVec.ofNat 32 n := by
  have hneg : ¬((n : ℤ) < 0) := by omega
  have e : IntOp.cmpi .slt (BitVec.ofNat 32 n) 0#32 = 0#1 := by
    show BitVec.ofBool ((BitVec.ofNat 32 n).slt 0#32) = 0#1
    unfold BitVec.slt; rw [toInt_small n h]; simp [hneg]
  rw [e]; exact select_zero _ _

/-- A small non-negative index survives the clamp into the matrix. -/
theorem clamp_small (n : ℕ) (h : n < 8192) : min (BitVec.ofNat 32 n).toInt.toNat (8192 - 1) = n := by
  rw [toInt_small n (by omega)]; simp; omega

/-! ## The index vectors of the two gathers -/

theorem rowIdx_apply (i : Fin 4096) : rowIdx (ix1 i) = BitVec.ofNat 32 i.val := by
  unfold rowIdx
  exact select_nonneg i.val (by have := i.isLt; omega) _

theorem partnerIdx_apply (i : Fin 4096) : partnerIdx (ix1 i) = BitVec.ofNat 32 (i.val + 4096) := by
  unfold partnerIdx
  show Scalar.select (IntOp.cmpi .slt (BitVec.ofNat 32 i.val + BitVec.ofNat 32 4096) 0#32) _ (BitVec.ofNat 32 i.val + BitVec.ofNat 32 4096) = _
  rw [← BitVec.ofNat_add]
  exact select_nonneg (i.val + 4096) (by have := i.isLt; omega) _

/-- Two index columns side by side: the first column, -/
theorem cols_left (u v : S4096x1.Idx → BitVec 32) (i : Fin 4096) :
    concatenate S4096x2 1 [⟨S4096x1, u⟩, ⟨S4096x1, v⟩] concatenates_S4096x1_S4096x1_S4096x2_d1 (ix2 i (0 : Fin 2)) = u (ix2 i (0 : Fin 1)) :=
  concatenate_pair_apply_left (t := S4096x2) (s₁ := S4096x1) (s₂ := S4096x1) (1 : Fin 2) u v concatenates_S4096x1_S4096x1_S4096x2_d1
    (ix2 i (0 : Fin 2)) rfl (ix2 i (0 : Fin 1)) (fun b => match b with | ⟨0, _⟩ => rfl | ⟨1, _⟩ => rfl)

/-- and the second. -/
theorem cols_right (u v : S4096x1.Idx → BitVec 32) (i : Fin 4096) :
    concatenate S4096x2 1 [⟨S4096x1, u⟩, ⟨S4096x1, v⟩] concatenates_S4096x1_S4096x1_S4096x2_d1 (ix2 i (1 : Fin 2)) = v (ix2 i (0 : Fin 1)) :=
  concatenate_pair_apply_right (t := S4096x2) (s₁ := S4096x1) (s₂ := S4096x1) (1 : Fin 2) u v concatenates_S4096x1_S4096x1_S4096x2_d1
    (ix2 i (1 : Fin 2)) rfl rfl (ix2 i (0 : Fin 1)) (fun b hb => by
      have hlt : b.val < 2 := b.isLt
      have hne : b.val ≠ 1 := fun e => hb (Fin.ext e)
      obtain rfl : b = (0 : Fin 2) := Fin.ext (by show b.val = 0; omega)
      rfl) rfl

theorem col_apply (u : S4096.Idx → BitVec 32) (i : Fin 4096) :
    broadcastInDim S4096x1 ![0] bcast_S4096_S4096x1_0 u (ix2 i (0 : Fin 1)) = u (ix1 i) :=
  broadcastInDim_apply ![0] bcast_S4096_S4096x1_0 u (ix2 i (0 : Fin 1)) (ix1 i) (fun b => match b with | ⟨0, _⟩ => rfl)

theorem pair_left (u v : S4096.Idx → BitVec 32) (i : Fin 4096) : pairIdx u v (ix2 i (0 : Fin 2)) = u (ix1 i) := by
  unfold pairIdx; rw [cols_left, col_apply]

theorem pair_right (u v : S4096.Idx → BitVec 32) (i : Fin 4096) : pairIdx u v (ix2 i (1 : Fin 2)) = v (ix1 i) := by
  unfold pairIdx; rw [cols_right, col_apply]

/-! ## The similarity matrix -/

theorem lhs0 (i : S8192x8192.Idx) (q : dot_S8192x768_S768x8192_S8192x8192_1_0_0_1_n_n.contr.Idx) : (dot_S8192x768_S768x8192_S8192x8192_1_0_0_1_n_n.lhsIdx i q 0).val = (i 0).val := by
  unfold DotDims.lhsIdx
  rw [dif_neg (show ¬(0 : Fin S8192x768.rank) ∈ dot_S8192x768_S768x8192_S8192x8192_1_0_0_1_n_n.lhsBatch by decide), dif_pos (show (0 : Fin S8192x768.rank) ∈ dot_S8192x768_S768x8192_S8192x8192_1_0_0_1_n_n.lhsNonContracting by decide)]
  rfl
theorem lhs1 (i : S8192x8192.Idx) (q : dot_S8192x768_S768x8192_S8192x8192_1_0_0_1_n_n.contr.Idx) : (dot_S8192x768_S768x8192_S8192x8192_1_0_0_1_n_n.lhsIdx i q 1).val = (q ⟨0, by decide⟩).val :=
  dot_S8192x768_S768x8192_S8192x8192_1_0_0_1_n_n.lhsIdx_val_of_single rfl i q
theorem rhs0 (i : S8192x8192.Idx) (q : dot_S8192x768_S768x8192_S8192x8192_1_0_0_1_n_n.contr.Idx) : (dot_S8192x768_S768x8192_S8192x8192_1_0_0_1_n_n.rhsIdx i q 0).val = (q ⟨0, by decide⟩).val :=
  dot_S8192x768_S768x8192_S8192x8192_1_0_0_1_n_n.rhsIdx_val_of_single rfl i q
theorem rhs1 (i : S8192x8192.Idx) (q : dot_S8192x768_S768x8192_S8192x8192_1_0_0_1_n_n.contr.Idx) : (dot_S8192x768_S768x8192_S8192x8192_1_0_0_1_n_n.rhsIdx i q 1).val = (i 1).val := by
  unfold DotDims.rhsIdx
  rw [dif_neg (show ¬(1 : Fin S768x8192.rank) ∈ dot_S8192x768_S768x8192_S8192x8192_1_0_0_1_n_n.rhsBatch by decide), dif_pos (show (1 : Fin S768x8192.rank) ∈ dot_S8192x768_S768x8192_S8192x8192_1_0_0_1_n_n.rhsNonContracting by decide)]
  rfl

theorem rowAt_in (Xm : S8192x768.Idx → EReal) (r : Fin 8192) (k : Fin 768) : rowAt Xm r.val k = Xm (ix2 r k) := by
  unfold rowAt; rw [dif_pos r.isLt]

/-- An entry of the similarity matrix is the inner product of two rows of the stacked matrix. -/
theorem sim_apply (Xm : (⟨S8192x768, .f32⟩ : BufTy).Contents (Elt Ideal)) (r c : Fin 8192) :
    simM Xm (ix2 r c) = simAt Xm r.val c.val := by
  unfold simM simAt
  simp only [Host.dotGeneral]
  rw [Ideal.dotGeneral_apply, ← Equiv.sum_comp (contrEquiv1 dot_S8192x768_S768x8192_S8192x8192_1_0_0_1_n_n 768 rfl rfl).symm]
  refine Finset.sum_congr rfl fun k _ => ?_
  have hk := contrEquiv1_symm_val dot_S8192x768_S768x8192_S8192x8192_1_0_0_1_n_n 768 rfl rfl k
  have el : dot_S8192x768_S768x8192_S8192x8192_1_0_0_1_n_n.lhsIdx (ix2 r c) ((contrEquiv1 dot_S8192x768_S768x8192_S8192x8192_1_0_0_1_n_n 768 rfl rfl).symm k) = ix2 r k := funext fun a => Fin.ext (by
    match a with
    | ⟨0, _⟩ => exact lhs0 _ _
    | ⟨1, _⟩ => exact (lhs1 _ _).trans hk)
  have er : dot_S8192x768_S768x8192_S8192x8192_1_0_0_1_n_n.rhsIdx (ix2 r c) ((contrEquiv1 dot_S8192x768_S768x8192_S8192x8192_1_0_0_1_n_n 768 rfl rfl).symm k) = ix2 k c := funext fun a => Fin.ext (by
    match a with
    | ⟨0, _⟩ => exact (rhs0 _ _).trans hk
    | ⟨1, _⟩ => exact rhs1 _ _)
  rw [el, er, transpose_ix2_apply, rowAt_in, rowAt_in]

/-! ## The gather of one matrix entry per row -/

theorem gather_entry {α : Type} (x : S8192x8192.Idx → α) (idx : IVec S4096x2 32) (y : Fin 4096) (r c : Fin 8192)
    (hr : min (idx (ix2 y (0 : Fin 2))).toInt.toNat (8192 - 1) = r.val)
    (hc : min (idx (ix2 y (1 : Fin 2))).toInt.toNat (8192 - 1) = c.val) :
    Host.gather gather_S8192x8192_S4096x2_S4096_n_01_n_n_01_1_11 x idx (ix1 y) = x (ix2 r c) := by
  unfold Host.gather
  congr 1
  funext a
  refine Fin.ext ?_
  show gather_S8192x8192_S4096x2_S4096_n_01_n_n_01_1_11.start (ix1 y) idx a + gather_S8192x8192_S4096x2_S4096_n_01_n_n_01_1_11.batchCoord (ix1 y) a + gather_S8192x8192_S4096x2_S4096_n_01_n_n_01_1_11.offCoord (ix1 y) a = (ix2 r c a).val
  match a with
  | ⟨0, hlt⟩ =>
    have h0 : (⟨0, hlt⟩ : Fin S8192x8192.rank) ∈ gather_S8192x8192_S4096x2_S4096_n_01_n_n_01_1_11.startIndexMap := List.mem_cons_self
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos h0]
    have hsi : gather_S8192x8192_S4096x2_S4096_n_01_n_n_01_1_11.siIdx (ix1 y) ⟨List.idxOf (⟨0, hlt⟩ : Fin S8192x8192.rank) gather_S8192x8192_S4096x2_S4096_n_01_n_n_01_1_11.startIndexMap, List.idxOf_lt_length_iff.2 h0⟩
        = ix2 y (0 : Fin 2) := by
      funext b; refine Fin.ext ?_
      match b with
      | ⟨0, _⟩ => rfl
      | ⟨1, _⟩ => rfl
    rw [hsi]; exact hr
  | ⟨1, hlt⟩ =>
    have h1 : (⟨1, hlt⟩ : Fin S8192x8192.rank) ∈ gather_S8192x8192_S4096x2_S4096_n_01_n_n_01_1_11.startIndexMap := List.mem_cons_of_mem _ List.mem_cons_self
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos h1]
    have hsi : gather_S8192x8192_S4096x2_S4096_n_01_n_n_01_1_11.siIdx (ix1 y) ⟨List.idxOf (⟨1, hlt⟩ : Fin S8192x8192.rank) gather_S8192x8192_S4096x2_S4096_n_01_n_n_01_1_11.startIndexMap, List.idxOf_lt_length_iff.2 h1⟩
        = ix2 y (1 : Fin 2) := by
      funext b; refine Fin.ext ?_
      match b with
      | ⟨0, _⟩ => rfl
      | ⟨1, _⟩ => rfl
    rw [hsi]; exact hc

/-! ## The positive pairs -/

/-- Row r's positive pair is S(r, partner r). -/
theorem pos_apply (Xm : (⟨S8192x768, .f32⟩ : BufTy).Contents (Elt Ideal)) (r : Fin 8192) :
    posVec Xm (ix1 r) = simAt Xm r.val (partner r.val) := by
  unfold posVec partner
  by_cases h : r.val < 4096
  · rw [if_pos h, concatenate_pair_apply_left (t := S8192) (s₁ := S4096) (s₂ := S4096) (0 : Fin 1) _ _ concatenates_S4096_S4096_S8192_d0 (ix1 r) rfl
      (ix1 (⟨r.val, h⟩ : Fin 4096)) (fun b => match b with | ⟨0, _⟩ => rfl),
      gather_entry _ _ ⟨r.val, h⟩ ⟨r.val, by omega⟩ ⟨r.val + 4096, by omega⟩
        (by rw [pair_left, rowIdx_apply]; exact clamp_small r.val (by omega))
        (by rw [pair_right, partnerIdx_apply]; exact clamp_small (r.val + 4096) (by omega)),
      sim_apply]
  · have h1 : 4096 ≤ r.val := by omega
    have h3 : r.val - 4096 < 4096 := by have := r.isLt; omega
    rw [if_neg h, concatenate_pair_apply_right (t := S8192) (s₁ := S4096) (s₂ := S4096) (0 : Fin 1) _ _ concatenates_S4096_S4096_S8192_d0 (ix1 r) rfl rfl
      (ix1 (⟨r.val - 4096, h3⟩ : Fin 4096)) (fun b hb => absurd (Subsingleton.elim _ _) hb) (Nat.sub_add_cancel h1),
      gather_entry _ _ ⟨r.val - 4096, h3⟩ ⟨r.val - 4096 + 4096, by omega⟩ ⟨r.val - 4096, by omega⟩
        (by rw [pair_left, partnerIdx_apply]; exact clamp_small (r.val - 4096 + 4096) (by omega))
        (by rw [pair_right, rowIdx_apply]; exact clamp_small (r.val - 4096) (by omega)),
      sim_apply]
    show simAt Xm (r.val - 4096 + 4096) (r.val - 4096) = _
    rw [Nat.sub_add_cancel h1]

/-! ## The masked weights and the denominators -/

theorem word_eq_iff (r c : Fin 8192) : BitVec.ofNat 32 r.val + 0#32 = BitVec.ofNat 32 c.val ↔ r.val = c.val := by
  rw [BitVec.add_zero]
  constructor
  · intro e
    have := congrArg BitVec.toNat e
    rwa [toNat_small r.val (by have := r.isLt; omega), toNat_small c.val (by have := c.isLt; omega)] at this
  · intro e; rw [e]

/-- The reference's mask times exponential is the masked weight. -/
theorem weight_apply (Xm : (⟨S8192x768, .f32⟩ : BufTy).Contents (Elt Ideal)) (r c : Fin 8192) :
    mulf (F := Ideal) maskM (Host.exp (F := Ideal) (Host.divf (F := Ideal) (simM Xm)
      (broadcastInDim S8192x8192 ![] bcast_S_S8192x8192 (constant (F := Ideal) S_ .f32 0x3F000000#32)))) (ix2 r c)
      = wAt Xm r.val c.val := by
  rw [wAt_eq, ← sim_apply]
  show (Ideal.ofBits .f32 0x3F800000#32
        - (((IntOp.cmpi .eq (BitVec.ofNat 32 r.val + 0#32) (BitVec.ofNat 32 c.val)).toNat : ℝ) : EReal))
      * Ideal.exp (Ideal.div (simM Xm (ix2 r c)) (Ideal.ofBits .f32 0x3F000000#32)) = _
  rw [Cert.Consts.ofBits_one, Cert.Consts.ofBits_half, ← Cert.Loss.mul_two_eq_div_half]
  by_cases h : r.val = c.val
  · rw [if_pos h, (Cert.KernelIdeal.Val.cmpi_eq_one_iff _ _).mpr ((word_eq_iff r c).mpr h)]
    have e1 : (1 : BitVec 1).toNat = 1 := by decide
    rw [e1, Nat.cast_one, ← EReal.coe_sub, sub_self, EReal.coe_zero, zero_mul]
  · rw [if_neg h, eq_zero_of_ne_one (fun e => h ((word_eq_iff r c).mp ((Cert.KernelIdeal.Val.cmpi_eq_one_iff _ _).mp e)))]
    norm_num

/-- Row r's denominator. -/
theorem denom_apply (Xm : (⟨S8192x768, .f32⟩ : BufTy).Contents (Elt Ideal)) (r : Fin 8192) :
    denomVec Xm (ix1 r) = denom Xm (ix2 r (0 : Fin 1)) := by
  unfold denomVec
  simp only [Host.reduceAdd, Ideal.hostReduceAdd_def]
  rw [Ideal.hostReduceAdd_single reducesTo_S8192x8192_S8192_d1 (by decide)]
  rw [show (constant (F := Ideal) S_ .f32 0x00000000#32) (Shape.Idx.first h_S_) = 0 from Ideal.ofBits_zero_f32, zero_add]
  unfold denom
  refine Finset.sum_congr rfl fun c _ => ?_
  refine Eq.trans (congrArg _ (funext fun a => Fin.ext (by match a with | ⟨0, _⟩ => rfl | ⟨1, _⟩ => rfl))) (weight_apply Xm r c)

/-! ## The rows of the loss -/

/-- THE REFERENCE'S ROW of the loss. -/
theorem ref_row (Xm : (⟨S8192x768, .f32⟩ : BufTy).Contents (Elt Ideal)) (r : Fin 8192) : refLoss Xm (ix1 r) = refRow Xm r := by
  unfold refLoss refRow
  show -(Ideal.log (Ideal.div (Ideal.exp (Ideal.div (posVec Xm (ix1 r))
      (broadcastInDim S8192 ![] bcast_S_S8192 (constant (F := Ideal) S_ .f32 0x3F000000#32) (ix1 r)))) (denomVec Xm (ix1 r)))) = _
  rw [broadcastInDim_scalar_apply bcast_S_S8192 _ _, pos_apply, denom_apply]
  show -(Ideal.log (Ideal.div (Ideal.exp (Ideal.div _ (Ideal.ofBits .f32 0x3F000000#32))) _)) = _
  rw [Cert.Consts.ofBits_half]

end Cert.RefRows

end
-- ==== Proof.Finite.lean ====
/-
  From the precondition to real entries.

  The precondition says, of each argument, that the conjunction over all entries of "|x| < +∞" is true. A conjunction that is
  true is true entry by entry; and an extended real whose absolute value is below +∞ is neither infinity, so a real number.
-/
import proofs.«177341_j9079560864194_1_alg».proof.Proof.Gen.Pre_finite_inputs
import proofs.«177341_j9079560864194_1_alg».proof.Proof.LibIsReal
import Idealize.ShloMosaic.Lib.ReduceAll
import Idealize.ShloMosaic.Lib.Affine
import Idealize.ShloMosaic.Lib.ValueIdx
import Idealize.ShloMosaic.Lib.IdealHost

noncomputable section

namespace Cert.Finite

open Idealize.ShloMosaic Cert.Pre_finite_inputs
open Cert (IsReal)

instance : Subsingleton S_.Idx := ⟨fun a b => funext fun d => d.elim0⟩

theorem ofBits_inf : Ideal.ofBits .f32 0x7F800000#32 = ⊤ := by simp [Ideal.ofBits, Ideal.ieee]

/-- An extended real whose absolute value compares below +∞ is a real number. -/
theorem isReal_of_abs_lt (x : EReal)
    (h : FloatOps.cmpf (F := Ideal) (φ := .f32) .olt (FloatOps.hostAbsf (F := Ideal) (φ := .f32) x) (Ideal.ofBits .f32 0x7F800000#32) = 1#1) :
    IsReal x := by
  rw [ofBits_inf] at h
  have h2 : max x (-x) < ⊤ := by
    by_contra hn
    have e : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [e] at h; exact absurd h (by decide)
  have ht : x ≠ ⊤ := fun e => by subst e; simp at h2
  have hb : x ≠ ⊥ := fun e => by subst e; simp at h2
  exact ⟨x.toReal, (EReal.coe_toReal ht hb).symm⟩

/-- The precondition true of two arrays makes every entry of both a real number. -/
theorem finite_of_pre (a0 a1 : FVec Ideal S4096x768 .f32) (h : Cert.Pre_finite_inputs.fn (F := Ideal) a0 a1 = fun _ => 1#1) :
    (∀ j, IsReal (a0 j)) ∧ (∀ j, IsReal (a1 j)) := by
  have h0 := congrFun h ValueIdx.ix0
  dsimp only [Cert.Pre_finite_inputs.fn] at h0
  obtain ⟨e0, e1⟩ := IntOp.andi_eq_one.mp h0
  refine ⟨fun j => isReal_of_abs_lt _ ?_, fun j => isReal_of_abs_lt _ ?_⟩
  · have := Host.reduce_andi_all _ _ _ _ _ e0 j
    have hb : broadcastInDim S4096x768 ![] Facts.bcast_S_S4096x768 (constant (F := Ideal) S_ .f32 0x7F800000#32) j
        = Ideal.ofBits .f32 0x7F800000#32 := ValueIdx.broadcastInDim_scalar_apply _ _ _
    rw [← hb]; exact this
  · have := Host.reduce_andi_all _ _ _ _ _ e1 j
    have hb : broadcastInDim S4096x768 ![] Facts.bcast_S_S4096x768 (constant (F := Ideal) S_ .f32 0x7F800000#32) j
        = Ideal.ofBits .f32 0x7F800000#32 := ValueIdx.broadcastInDim_scalar_apply _ _ _
    rw [← hb]; exact this

end Cert.Finite

end
-- ==== Proof.Bridge.lean ====
/-
  The two programs' results are one function of the arguments.

  Both programs end by averaging 8192 rows of a loss (the same two host operations) over the same stacked matrix of normalised
  arguments; the rows agree one by one — the reference's read off its similarity matrix, the kernel program's off the kernel's
  denominators and the host's positive pairs — as soon as the arguments' entries are real numbers.
-/
import proofs.«177341_j9079560864194_1_alg».proof.Proof.RefRows
import proofs.«177341_j9079560864194_1_alg».proof.Proof.Finite

set_option maxRecDepth 16384

noncomputable section

namespace Cert.Bridge

open Idealize.ShloMosaic Idealize.ShloMosaic.ValueIdx
open Cert.RefWalk (refLoss)
open Cert.KernelIdeal.Val (unitRows stacked meanOf rowLoss denom kernel_row unitRows_isReal)
open Cert (IsReal)

/-- The reference's result is the kernel program's result term, over arguments with real entries. -/
theorem loss_eq (a0 a1 : (⟨Cert.KernelIdeal.S4096x768, .f32⟩ : BufTy).Contents (Elt Ideal))
    (h0 : ∀ j, IsReal (a0 j)) (h1 : ∀ j, IsReal (a1 j)) :
    meanOf (refLoss (stacked (unitRows a0) (unitRows a1)))
      = meanOf (rowLoss (denom (stacked (unitRows a0) (unitRows a1))) (unitRows a0) (unitRows a1)) := by
  refine congrArg meanOf (funext fun j => ?_)
  obtain ⟨r, rfl⟩ : ∃ r : Fin 8192, j = ix1 r := ⟨j 0, eq_ix1 j⟩
  rw [Cert.RefRows.ref_row, kernel_row _ _ (unitRows_isReal a0 h0) (unitRows_isReal a1 h1)]

end Cert.Bridge

end
-- ==== Proof.lean ====
/-
  The certificate: a fused InfoNCE loss kernel against its plain reference.

  The kernel program normalises the rows of its two arguments, stacks them into an 8192×768 matrix X and launches one kernel
  on an 8×8 grid: point (i, j) multiplies row tile i of X by row tile j of the SAME X, exponentiates twice the products, zeroes
  the entries on the diagonal of the whole similarity matrix and adds the row sums to an accumulator column it carries over
  j; at j = 7 the column is written back as rows 1024·i … of the denominators. The host then averages log(denominator) minus
  twice the positive-pair similarity. The reference forms the whole 8192×8192 similarity matrix and computes
  −log(exp(positive / ½) / Σ mask · exp(similarity / ½)) row by row.

  * The three frames: both kernels' frames are hand-written (the two input windows read one array, each at half the full
    share: `LibSharedFrame.lean`; the body is run once per case of its two conditions and the accumulator tracked point by
    point: `K/`, `KI/`); the reference's is its run as one line of host operations (`RefProg.lean`, `RefWalk.lean`: each shared value named once) with the result dropped.
  * `preserves`: the ideal pass rewrote nothing.
  * `algebraic`: the kernel's output array is r ↦ Σ_c w(r, c) in closed form (`KI/Value.lean`); the host operations around it
    are named (`KI/Host.lean`); row by row the two losses agree by log(a/b) = log a − log b and log ∘ exp = id, which on the
    extended reals needs the arguments finite — the one use of the precondition (`KI/Rows.lean`, `Finite.lean`); the
    reference's rows are read off the named pieces of its result (`RefRows.lean`).
-/
import proofs.«177341_j9079560864194_1_alg».proof.Defs
import proofs.«177341_j9079560864194_1_alg».proof.Proof.Gen.Kernel
import proofs.«177341_j9079560864194_1_alg».proof.Proof.Gen.Kernel.Skeleton
import proofs.«177341_j9079560864194_1_alg».proof.Proof.Gen.Kernel.Launch
import proofs.«177341_j9079560864194_1_alg».proof.Proof.Gen.Kernel.Points
import proofs.«177341_j9079560864194_1_alg».proof.Proof.Gen.KernelIdeal
import proofs.«177341_j9079560864194_1_alg».proof.Proof.Gen.KernelIdeal.Skeleton
import proofs.«177341_j9079560864194_1_alg».proof.Proof.Gen.KernelIdeal.Launch
import proofs.«177341_j9079560864194_1_alg».proof.Proof.Gen.KernelIdeal.Points
import proofs.«177341_j9079560864194_1_alg».proof.Proof.Gen.ReferenceIdeal
import proofs.«177341_j9079560864194_1_alg».proof.Proof.Gen.Pre_finite_inputs
import proofs.«177341_j9079560864194_1_alg».proof.Proof.K.Run
import proofs.«177341_j9079560864194_1_alg».proof.Proof.KI.Rows
import proofs.«177341_j9079560864194_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.RefWalk.run m ρ)

theorem preserves : Cert.preserves_Kernel_KernelIdeal := trivial

/-- Both idealized programs end at the mean of the kernel program's rows of the loss over the arguments' normalised rows. -/
theorem algebraic : Cert.algebraic_KernelIdeal_ReferenceIdeal := by
  intro m ρ m' ρ' hpre hagree
  refine ⟨fun c => Cert.KernelIdeal.Val.meanOf (Cert.KernelIdeal.Val.rowLoss
      (Cert.KernelIdeal.Val.denom (Cert.KernelIdeal.Val.X m c))
      (Cert.KernelIdeal.Val.unitRows (m ((c.tc : Thread Cert.KernelIdeal.nD Cert.KernelIdeal.τ).loc Cert.KernelIdeal.main_arg0)))
      (Cert.KernelIdeal.Val.unitRows (m ((c.tc : Thread Cert.KernelIdeal.nD Cert.KernelIdeal.τ).loc Cert.KernelIdeal.main_arg1)))), ?_, ?_⟩
  · exact (θ_run Cert.KernelIdeal.defs _ _).mono
      (fun _ h c => ⟨(h c).1.trans (Cert.KernelIdeal.Val.result_eq m c), (h c).2.1, (h c).2.2⟩)
      (Cert.KernelIdeal.Hand.run_value m ρ)
  · refine (θ_run Cert.ReferenceIdeal.defs _ _).mono (fun _ h c => ⟨(h c).1.trans ?_, (h c).2.1, (h c).2.2⟩)
      (Cert.RefWalk.run m' ρ')
    obtain ⟨h0, h1⟩ := Cert.Finite.finite_of_pre _ _ (hpre c)
    rw [(hagree c).1, (hagree c).2, Cert.Bridge.loss_eq _ _ h0 h1]
    show _ = Cert.KernelIdeal.Val.meanOf (Cert.KernelIdeal.Val.rowLoss (Cert.KernelIdeal.Val.denom (Cert.KernelIdeal.Val.X m c)) _ _)
    rw [Cert.KernelIdeal.Val.X_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
